-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x64x64x2 : Shape := ⟨5, ![64, 64, 64, 64, 2]⟩
abbrev S768x2 : Shape := ⟨2, ![768, 2]⟩
abbrev S768 : Shape := ⟨1, ![768]⟩
abbrev S768x256 : Shape := ⟨2, ![768, 256]⟩
abbrev S128x256 : Shape := ⟨2, ![128, 256]⟩
abbrev S128 : Shape := ⟨1, ![128]⟩
abbrev S2x128 : Shape := ⟨2, ![2, 128]⟩
abbrev S2 : Shape := ⟨1, ![2]⟩
abbrev S2x2 : Shape := ⟨2, ![2, 2]⟩
abbrev S_ : Shape := ⟨0, ![]⟩

class Facts : Prop where
  bcast_S_S64x64x64x64x2 : S_.BroadcastsInDim S64x64x64x64x2 (![] : Fin 0 → Fin S64x64x64x64x2.rank)
  reducesTo_S64x64x64x64x2_S_d0_1_2_3_4 : S64x64x64x64x2.ReducesTo [0, 1, 2, 3, 4] S_
  h_S_ : 0 < S_.numel
  bcast_S_S768x2 : S_.BroadcastsInDim S768x2 (![] : Fin 0 → Fin S768x2.rank)
  reducesTo_S768x2_S_d0_1 : S768x2.ReducesTo [0, 1] S_
  bcast_S_S768 : S_.BroadcastsInDim S768 (![] : Fin 0 → Fin S768.rank)
  reducesTo_S768_S_d0 : S768.ReducesTo [0] S_
  bcast_S_S768x256 : S_.BroadcastsInDim S768x256 (![] : Fin 0 → Fin S768x256.rank)
  reducesTo_S768x256_S_d0_1 : S768x256.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_
  bcast_S_S2x2 : S_.BroadcastsInDim S2x2 (![] : Fin 0 → Fin S2x2.rank)
  reducesTo_S2x2_S_d0_1 : S2x2.ReducesTo [0, 1] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg7 : FVec F S2x128 .f32) (main_arg8 : FVec F S2 .f32) (main_arg9 : FVec F S2x2 .f32) (main_arg10 : FVec F S2 .f32) (main_v33 : IVec S_ 1) : IVec S_ 1 :=
  let main_v34 : FVec F S2x128 .f32 := Host.absf main_arg7
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S2 .f32 := Host.absf main_arg8
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  let main_v44 : FVec F S2x2 .f32 := Host.absf main_arg9
  let main_cst_16 : FVec F S_ .f32 := constant S_ .f32 0x7F800000#32
  let main_v45 : FVec F S2x2 .f32 := broadcastInDim S2x2 ![] bcast_S_S2x2 main_cst_16
  let main_v46 : IVec S2x2 1 := cmpf .olt main_v44 main_v45
  let main_c_17 : IVec S_ 1 := constantI S_ 1 1#1
  let main_v47 : IVec S_ 1 := (fun x v => Host.reduce IntOp.andi x v reducesTo_S2x2_S_d0_1 h_S_) main_v46 main_c_17
  let main_v48 : IVec S_ 1 := andi main_v43 main_v47
  let main_v49 : FVec F S2 .f32 := Host.absf main_arg10
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg4 : FVec F S768 .f32) (main_arg5 : FVec F S128x256 .f32) (main_arg6 : FVec F S128 .f32) (main_arg7 : FVec F S2x128 .f32) (main_arg8 : FVec F S2 .f32) (main_arg9 : FVec F S2x2 .f32) (main_arg10 : FVec F S2 .f32) (main_v13 : IVec S_ 1) (main_v16 : IVec S768x256 1) : IVec S_ 1 :=
  let main_c_5 : IVec S_ 1 := constantI S_ 1 1#1
  let main_v17 : IVec S_ 1 := (fun x v => Host.reduce IntOp.andi x v reducesTo_S768x256_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S64x64x64x64x2 .f32) (main_arg1 : FVec F S768x2 .f32) (main_arg2 : FVec F S768 .f32) (main_arg3 : FVec F S768x256 .f32) (main_arg4 : FVec F S768 .f32) (main_arg5 : FVec F S128x256 .f32) (main_arg6 : FVec F S128 .f32) (main_arg7 : FVec F S2x128 .f32) (main_arg8 : FVec F S2 .f32) (main_arg9 : FVec F S2x2 .f32) (main_arg10 : FVec F S2 .f32) : IVec S_ 1 :=
  let main_v0 : FVec F S64x64x64x64x2 .f32 := Host.absf main_arg0
  let main_cst : FVec F S_ .f32 := constant S_ .f32 0x7F800000#32
  let main_v1 : FVec F S64x64x64x64x2 .f32 := broadcastInDim S64x64x64x64x2 ![] bcast_S_S64x64x64x64x2 main_cst
  let main_v2 : IVec S64x64x64x64x2 1 := cmpf .olt main_v0 main_v1
  let main_c : IVec S_ 1 := constantI S_ 1 1#1
  let main_v3 : IVec S_ 1 := (fun x v => Host.reduce IntOp.andi x v reducesTo_S64x64x64x64x2_S_d0_1_2_3_4 h_S_) main_v2 main_c
  let main_v4 : FVec F S768x2 .f32 := Host.absf main_arg1
  let main_cst_0 : FVec F S_ .f32 := constant S_ .f32 0x7F800000#32
  let main_v5 : FVec F S768x2 .f32 := broadcastInDim S768x2 ![] bcast_S_S768x2 main_cst_0
  let main_v6 : IVec S768x2 1 := cmpf .olt main_v4 main_v5
  let main_c_1 : IVec S_ 1 := constantI S_ 1 1#1
  let main_v7 : IVec S_ 1 := (fun x v => Host.reduce IntOp.andi x v reducesTo_S768x2_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768x256 .f32 := Host.absf main_arg3
  let main_cst_4 : FVec F S_ .f32 := constant S_ .f32 0x7F800000#32
  let main_v15 : FVec F S768x256 .f32 := broadcastInDim S768x256 ![] bcast_S_S768x256 main_cst_4
  let main_v16 : IVec S768x256 1 := cmpf .olt main_v14 main_v15
  fn_part1 (F := F) main_arg4 main_arg5 main_arg6 main_arg7 main_arg8 main_arg9 main_arg10 main_v13 main_v16
-- ==== Kernel.lean ====
abbrev S64x64x64x64x2 : Shape := ⟨5, ![64, 64, 64, 64, 2]⟩
abbrev S768x2 : Shape := ⟨2, ![768, 2]⟩
abbrev S768 : Shape := ⟨1, ![768]⟩
abbrev S768x256 : Shape := ⟨2, ![768, 256]⟩
abbrev S128x256 : Shape := ⟨2, ![128, 256]⟩
abbrev S128 : Shape := ⟨1, ![128]⟩
abbrev S2x128 : Shape := ⟨2, ![2, 128]⟩
abbrev S2 : Shape := ⟨1, ![2]⟩
abbrev S2x2 : Shape := ⟨2, ![2, 2]⟩
abbrev S2x768 : Shape := ⟨2, ![2, 768]⟩
abbrev S64x2 : Shape := ⟨2, ![64, 2]⟩
abbrev S64x1x1x8x2 : Shape := ⟨5, ![64, 1, 1, 8, 2]⟩
abbrev S64x1x1x1x2 : Shape := ⟨5, ![64, 1, 1, 1, 2]⟩
abbrev S1x768 : Shape := ⟨2, ![1, 768]⟩
abbrev S64x1 : Shape := ⟨2, ![64, 1]⟩
abbrev S64x768 : Shape := ⟨2, ![64, 768]⟩
abbrev S64x256 : Shape := ⟨2, ![64, 256]⟩
abbrev S256 : Shape := ⟨1, ![256]⟩
abbrev S1x256 : Shape := ⟨2, ![1, 256]⟩
abbrev S256x128 : Shape := ⟨2, ![256, 128]⟩
abbrev S64x128 : Shape := ⟨2, ![64, 128]⟩
abbrev S1x128 : Shape := ⟨2, ![1, 128]⟩
abbrev S128x2 : Shape := ⟨2, ![128, 2]⟩
abbrev S1x2 : Shape := ⟨2, ![1, 2]⟩

abbrev nBuf : Space → Nat
  | .hbm => 14
  | .vmem => 11
  | .smem => 0
  | _ => 0

abbrev bufTy : (tb : Table) → Fin (tcTables nBuf tb) → BufTy
  | .hbm, ⟨0, _⟩ => ⟨S64x64x64x64x2, .f32⟩
  | .hbm, ⟨1, _⟩ => ⟨S768x2, .f32⟩
  | .hbm, ⟨2, _⟩ => ⟨S768, .f32⟩
  | .hbm, ⟨3, _⟩ => ⟨S768x256, .f32⟩
  | .hbm, ⟨4, _⟩ => ⟨S768, .f32⟩
  | .hbm, ⟨5, _⟩ => ⟨S128x256, .f32⟩
  | .hbm, ⟨6, _⟩ => ⟨S128, .f32⟩
  | .hbm, ⟨7, _⟩ => ⟨S2x128, .f32⟩
  | .hbm, ⟨8, _⟩ => ⟨S2, .f32⟩
  | .hbm, ⟨9, _⟩ => ⟨S2x2, .f32⟩
  | .hbm, ⟨10, _⟩ => ⟨S2, .f32⟩
  | .hbm, ⟨11, _⟩ => ⟨S2x768, .f32⟩
  | .hbm, ⟨12, _⟩ => ⟨S2x2, .f32⟩
  | .hbm, ⟨13, _⟩ => ⟨S64x2, .f32⟩
  | .local _ .vmem, ⟨0, _⟩ => ⟨S64x1x1x8x2, .f32⟩
  | .local _ .vmem, ⟨1, _⟩ => ⟨S2x768, .f32⟩
  | .local _ .vmem, ⟨2, _⟩ => ⟨S768, .f32⟩
  | .local _ .vmem, ⟨3, _⟩ => ⟨S768, .f32⟩
  | .local _ .vmem, ⟨4, _⟩ => ⟨S128x256, .f32⟩
  | .local _ .vmem, ⟨5, _⟩ => ⟨S128, .f32⟩
  | .local _ .vmem, ⟨6, _⟩ => ⟨S2x128, .f32⟩
  | .local _ .vmem, ⟨7, _⟩ => ⟨S2, .f32⟩
  | .local _ .vmem, ⟨8, _⟩ => ⟨S2x2, .f32⟩
  | .local _ .vmem, ⟨9, _⟩ => ⟨S2, .f32⟩
  | .local _ .vmem, ⟨10, _⟩ => ⟨S64x2, .f32⟩
  | _, _ => ⟨S64x64x64x64x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 5 → Nat :=
  let arg0 : BitVec 32 := BitVec.ofNat 32 (i 0).val
  let c0_i32 : BitVec 32 := 0#32
  let c63_i32 : BitVec 32 := 63#32
  let c32_i32 : BitVec 32 := 32#32
  let c4_i32 : BitVec 32 := 4#32
  let c0_i32_0 : BitVec 32 := 0#32
  let c0_i32_1 : BitVec 32 := 0#32
  ![c0_i32.toNat, c63_i32.toNat, c32_i32.toNat, c4_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x1x1x8x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x2 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

class Facts₀ : Prop where
  transposes_S768x2_S2x768_1_0 : S768x2.Transposes [1, 0] S2x768
  transposes_S2x2_S2x2_1_0 : S2x2.Transposes [1, 0] S2x2
  inb_S64x1x1x8x2_S64x1x1x1x2_0_0_0_0_0 : ∀ a, (![0, 0, 0, 0, 0] : Fin 5 → Nat) a + S64x1x1x1x2.size a ≤ S64x1x1x8x2.size a
  h_S64x1x1x1x2 : 0 < S64x1x1x1x2.numel
  shapeCasts_S64x1x1x1x2_S64x2 : S64x1x1x1x2.ShapeCasts S64x2
  inb_S2x768_S1x768_0_0 : ∀ a, (![0, 0] : Fin 2 → Nat) a + S1x768.size a ≤ S2x768.size a
  h_S1x768 : 0 < S1x768.numel
  shapeCasts_S1x768_S768 : S1x768.ShapeCasts S768
  inb_S2x768_S1x768_1_0 : ∀ a, (![1, 0] : Fin 2 → Nat) a + S1x768.size a ≤ S2x768.size a
  inb_S768_S768_0 : ∀ a, (![0] : Fin 1 → Nat) a + S768.size a ≤ S768.size a
  h_S768 : 0 < S768.numel
  slices_S64x2_o0_0_S64x1 : S64x2.Slices ![0, 0] S64x1
  shapeCasts_S768_S1x768 : S768.ShapeCasts S1x768
  broadcasts_S64x1_S64x768 : S64x1.Broadcasts S64x768
  broadcasts_S1x768_S64x768 : S1x768.Broadcasts S64x768
  slices_S64x2_o0_1_S64x1 : S64x2.Slices ![0, 1] S64x1
  slices_S64x768_o0_0_S64x256 : S64x768.Slices ![0, 0] S64x256
  slices_S64x768_o0_256_S64x256 : S64x768.Slices ![0, 256] S64x256
  slices_S64x768_o0_512_S64x256 : S64x768.Slices ![0, 512] S64x256
  slices_S768_o0_S256 : S768.Slices ![0] S256
  slices_S768_o256_S256 : S768.Slices ![256] S256
  slices_S768_o512_S256 : S768.Slices ![512] S256
  shapeCasts_S256_S1x256 : S256.ShapeCasts S1x256
  broadcasts_S1x256_S64x256 : S1x256.Broadcasts S64x256
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  transposes_S128x256_p1_0_S256x128 : S128x256.Transposes [1, 0] S256x128
  inb_S128_S128_0 : ∀ a, (![0] : Fin 1 → Nat) a + S128.size a ≤ S128.size a
  h_S128 : 0 < S128.numel
  shapeCasts_S128_S1x128 : S128.ShapeCasts S1x128
  broadcasts_S1x128_S64x128 : S1x128.Broadcasts S64x128
  inb_S2x128_S2x128_0_0 : ∀ a, (![0, 0] : Fin 2 → Nat) a + S2x128.size a ≤ S2x128.size a
  h_S2x128 : 0 < S2x128.numel
  transposes_S2x128_p1_0_S128x2 : S2x128.Transposes [1, 0] S128x2
  inb_S2_S2_0 : ∀ a, (![0] : Fin 1 → Nat) a + S2.size a ≤ S2.size a
  h_S2 : 0 < S2.numel
  shapeCasts_S2_S1x2 : S2.ShapeCasts S1x2
  broadcasts_S1x2_S64x2 : S1x2.Broadcasts S64x2
  inb_S2x2_S1x2_0_0 : ∀ a, (![0, 0] : Fin 2 → Nat) a + S1x2.size a ≤ S2x2.size a
  h_S1x2 : 0 < S1x2.numel
  shapeCasts_S1x2_S2 : S1x2.ShapeCasts S2
  inb_S2x2_S1x2_1_0 : ∀ a, (![1, 0] : Fin 2 → Nat) a + S1x2.size a ≤ S2x2.size a
  broadcasts_S64x1_S64x2 : S64x1.Broadcasts S64x2
  inb_S64x2_S64x2_0_0 : ∀ a, (![0, 0] : Fin 2 → Nat) a + S64x2.size a ≤ S64x2.size a
  h_S64x2 : 0 < S64x2.numel
  dot_S64x256_S256x128_S64x128_1_0_0_1_n_n_wf : DotDims.WF S64x256 S256x128 S64x128 [1] [0] [0] [1] [] []
  dot_S64x128_S128x2_S64x2_1_0_0_1_n_n_wf : DotDims.WF S64x128 S128x2 S64x2 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x1x1x8x2.size a ≤ S64x64x64x64x2.size a
  hwx0_0 : ∀ i : grid0.Coords, EltTy.bits .f32 = 32 ∨ (Rect.block (s := S64x64x64x64x2) S64x1x1x8x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x768.size a ≤ S2x768.size a
  hwx0_1 : ∀ i : grid0.Coords, EltTy.bits .f32 = 32 ∨ (Rect.block (s := S2x768) S2x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768.size a ≤ S768.size a
  hwx0_2 : ∀ i : grid0.Coords, EltTy.bits .f32 = 32 ∨ (Rect.block (s := S768) S768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768.size a ≤ S768.size a
  hwx0_3 : ∀ i : grid0.Coords, EltTy.bits .f32 = 32 ∨ (Rect.block (s := S768) S768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x128.size a ≤ S2x128.size a
  hwx0_6 : ∀ i : grid0.Coords, EltTy.bits .f32 = 32 ∨ (Rect.block (s := S2x128) S2x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2.size a ≤ S2.size a
  hwx0_7 : ∀ i : grid0.Coords, EltTy.bits .f32 = 32 ∨ (Rect.block (s := S2) S2.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2x2.size a ≤ S2x2.size a
  hwx0_8 : ∀ i : grid0.Coords, EltTy.bits .f32 = 32 ∨ (Rect.block (s := S2x2) S2x2.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2.size a ≤ S2.size a
  hwx0_9 : ∀ i : grid0.Coords, EltTy.bits .f32 = 32 ∨ (Rect.block (s := S2) S2.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x2.size a ≤ S64x2.size a
  hwx0_10 : ∀ i : grid0.Coords, EltTy.bits .f32 = 32 ∨ (Rect.block (s := S64x2) S64x2.size (cc0_transform_10 i) (hinb0_10 i)).WholeWords (EltTy.packing .f32)

variable [Facts₀]

def dot_S64x256_S256x128_S64x128_1_0_0_1_n_n : DotDims S64x256 S256x128 S64x128 where
  lhsContracting := [1]
  rhsContracting := [0]
  lhsNonContracting := [0]
  rhsNonContracting := [1]
  lhsBatch := []
  rhsBatch := []
  wf := dot_S64x256_S256x128_S64x128_1_0_0_1_n_n_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

abbrev win0_0 : Pipeline.Window sig grid0 :=
  Pipeline.Window.ofSpec (Memref.whole main_arg0) S64x1x1x8x2.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S2x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S2.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1) S2x2.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S2.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v2) S64x2.size cc0_transform_10 reads0_10 true true 1 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S64x64x64x64x2 : Shape := ⟨5, ![64, 64, 64, 64, 2]⟩
abbrev S768x2 : Shape := ⟨2, ![768, 2]⟩
abbrev S768 : Shape := ⟨1, ![768]⟩
abbrev S768x256 : Shape := ⟨2, ![768, 256]⟩
abbrev S128x256 : Shape := ⟨2, ![128, 256]⟩
abbrev S128 : Shape := ⟨1, ![128]⟩
abbrev S2x128 : Shape := ⟨2, ![2, 128]⟩
abbrev S2 : Shape := ⟨1, ![2]⟩
abbrev S2x2 : Shape := ⟨2, ![2, 2]⟩
abbrev S64x1x1x1x2 : Shape := ⟨5, ![64, 1, 1, 1, 2]⟩
abbrev S64x2 : Shape := ⟨2, ![64, 2]⟩
abbrev S2x768 : Shape := ⟨2, ![2, 768]⟩
abbrev S64x768 : Shape := ⟨2, ![64, 768]⟩
abbrev S1x768 : Shape := ⟨2, ![1, 768]⟩
abbrev S64x256 : Shape := ⟨2, ![64, 256]⟩
abbrev S256 : Shape := ⟨1, ![256]⟩
abbrev S1x256 : Shape := ⟨2, ![1, 256]⟩
abbrev S_ : Shape := ⟨0, ![]⟩
abbrev S256x128 : Shape := ⟨2, ![256, 128]⟩
abbrev S64x128 : Shape := ⟨2, ![64, 128]⟩
abbrev S1x128 : Shape := ⟨2, ![1, 128]⟩
abbrev S128x2 : Shape := ⟨2, ![128, 2]⟩
abbrev S1x2 : Shape := ⟨2, ![1, 2]⟩

abbrev nBuf : Space → Nat
  | .hbm => 74
  | .vmem => 0
  | .smem => 0
  | _ => 0

abbrev bufTy : (tb : Table) → Fin (tcTables nBuf tb) → BufTy
  | .hbm, ⟨0, _⟩ => ⟨S64x64x64x64x2, .f32⟩
  | .hbm, ⟨1, _⟩ => ⟨S768x2, .f32⟩
  | .hbm, ⟨2, _⟩ => ⟨S768, .f32⟩
  | .hbm, ⟨3, _⟩ => ⟨S768x256, .f32⟩
  | .hbm, ⟨4, _⟩ => ⟨S768, .f32⟩
  | .hbm, ⟨5, _⟩ => ⟨S128x256, .f32⟩
  | .hbm, ⟨6, _⟩ => ⟨S128, .f32⟩
  | .hbm, ⟨7, _⟩ => ⟨S2x128, .f32⟩
  | .hbm, ⟨8, _⟩ => ⟨S2, .f32⟩
  | .hbm, ⟨9, _⟩ => ⟨S2x2, .f32⟩
  | .hbm, ⟨10, _⟩ => ⟨S2, .f32⟩
  | .hbm, ⟨11, _⟩ => ⟨S64x1x1x1x2, .f32⟩
  | .hbm, ⟨12, _⟩ => ⟨S64x2, .f32⟩
  | .hbm, ⟨13, _⟩ => ⟨S2x768, .f32⟩
  | .hbm, ⟨14, _⟩ => ⟨S64x768, .f32⟩
  | .hbm, ⟨15, _⟩ => ⟨S1x768, .f32⟩
  | .hbm, ⟨16, _⟩ => ⟨S64x768, .f32⟩
  | .hbm, ⟨17, _⟩ => ⟨S64x768, .f32⟩
  | .hbm, ⟨18, _⟩ => ⟨S64x256, .f32⟩
  | .hbm, ⟨19, _⟩ => ⟨S64x256, .f32⟩
  | .hbm, ⟨20, _⟩ => ⟨S64x256, .f32⟩
  | .hbm, ⟨21, _⟩ => ⟨S256, .f32⟩
  | .hbm, ⟨22, _⟩ => ⟨S256, .f32⟩
  | .hbm, ⟨23, _⟩ => ⟨S256, .f32⟩
  | .hbm, ⟨24, _⟩ => ⟨S1x256, .f32⟩
  | .hbm, ⟨25, _⟩ => ⟨S64x256, .f32⟩
  | .hbm, ⟨26, _⟩ => ⟨S64x256, .f32⟩
  | .hbm, ⟨27, _⟩ => ⟨S64x256, .f32⟩
  | .hbm, ⟨28, _⟩ => ⟨S64x256, .f32⟩
  | .hbm, ⟨29, _⟩ => ⟨S_, .f32⟩
  | .hbm, ⟨30, _⟩ => ⟨S64x256, .f32⟩
  | .hbm, ⟨31, _⟩ => ⟨S64x256, .f32⟩
  | .hbm, ⟨32, _⟩ => ⟨S_, .f32⟩
  | .hbm, ⟨33, _⟩ => ⟨S64x256, .f32⟩
  | .hbm, ⟨34, _⟩ => ⟨S64x256, .f32⟩
  | .hbm, ⟨35, _⟩ => ⟨S1x256, .f32⟩
  | .hbm, ⟨36, _⟩ => ⟨S64x256, .f32⟩
  | .hbm, ⟨37, _⟩ => ⟨S64x256, .f32⟩
  | .hbm, ⟨38, _⟩ => ⟨S64x256, .f32⟩
  | .hbm, ⟨39, _⟩ => ⟨S64x256, .f32⟩
  | .hbm, ⟨40, _⟩ => ⟨S_, .f32⟩
  | .hbm, ⟨41, _⟩ => ⟨S64x256, .f32⟩
  | .hbm, ⟨42, _⟩ => ⟨S64x256, .f32⟩
  | .hbm, ⟨43, _⟩ => ⟨S_, .f32⟩
  | .hbm, ⟨44, _⟩ => ⟨S64x256, .f32⟩
  | .hbm, ⟨45, _⟩ => ⟨S64x256, .f32⟩
  | .hbm, ⟨46, _⟩ => ⟨S1x256, .f32⟩
  | .hbm, ⟨47, _⟩ => ⟨S64x256, .f32⟩
  | .hbm, ⟨48, _⟩ => ⟨S64x256, .f32⟩
  | .hbm, ⟨49, _⟩ => ⟨S64x256, .f32⟩
  | .hbm, ⟨50, _⟩ => ⟨S64x256, .f32⟩
  | .hbm, ⟨51, _⟩ => ⟨S_, .f32⟩
  | .hbm, ⟨52, _⟩ => ⟨S64x256, .f32⟩
  | .hbm, ⟨53, _⟩ => ⟨S64x256, .f32⟩
  | .hbm, ⟨54, _⟩ => ⟨S64x256, .f32⟩
  | .hbm, ⟨55, _⟩ => ⟨S256x128, .f32⟩
  | .hbm, ⟨56, _⟩ => ⟨S64x128, .f32⟩
  | .hbm, ⟨57, _⟩ => ⟨S1x128, .f32⟩
  | .hbm, ⟨58, _⟩ => ⟨S64x128, .f32⟩
  | .hbm, ⟨59, _⟩ => ⟨S64x128, .f32⟩
  | .hbm, ⟨60, _⟩ => ⟨S_, .f32⟩
  | .hbm, ⟨61, _⟩ => ⟨S64x128, .f32⟩
  | .hbm, ⟨62, _⟩ => ⟨S64x128, .f32⟩
  | .hbm, ⟨63, _⟩ => ⟨S128x2, .f32⟩
  | .hbm, ⟨64, _⟩ => ⟨S64x2, .f32⟩
  | .hbm, ⟨65, _⟩ => ⟨S1x2, .f32⟩
  | .hbm, ⟨66, _⟩ => ⟨S64x2, .f32⟩
  | .hbm, ⟨67, _⟩ => ⟨S64x2, .f32⟩
  | .hbm, ⟨68, _⟩ => ⟨S64x2, .f32⟩
  | .hbm, ⟨69, _⟩ => ⟨S2x2, .f32⟩
  | .hbm, ⟨70, _⟩ => ⟨S64x2, .f32⟩
  | .hbm, ⟨71, _⟩ => ⟨S1x2, .f32⟩
  | .hbm, ⟨72, _⟩ => ⟨S64x2, .f32⟩
  | .hbm, ⟨73, _⟩ => ⟨S64x2, .f32⟩
  | _, _ => ⟨S64x64x64x64x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_v19 : Ref sig .tc := ⟨.hbm, 31, rfl⟩
abbrev main_cst_0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_1 : Ref sig .tc := ⟨.hbm, 40, rfl⟩
abbrev main_v27 : Ref sig .tc := ⟨.hbm, 41, rfl⟩
abbrev main_v28 : Ref sig .tc := ⟨.hbm, 42, rfl⟩
abbrev main_cst_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_3 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_call0_cst : Ref sig .tc := ⟨.hbm, 60, rfl⟩
abbrev main_call0_v0 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩

abbrev nD : Nat := 1
abbrev τ : Topo := Topo.v7x

variable {F : FTy → Type} [FloatOps F]

class Facts₀ : Prop where
  slices_S64x64x64x64x2_S64x1x1x1x2_0_63_32_32_0 : S64x64x64x64x2.Slices ![0, 63, 32, 32, 0] S64x1x1x1x2
  shapeCasts_S64x1x1x1x2_S64x2 : S64x1x1x1x2.ShapeCasts S64x2
  transposes_S768x2_S2x768_1_0 : S768x2.Transposes [1, 0] S2x768
  bcast_S768_S1x768_1 : S768.BroadcastsInDim S1x768 (![1] : Fin 1 → Fin S1x768.rank)
  bcast_S1x768_S64x768_0_1 : S1x768.BroadcastsInDim S64x768 (![0, 1] : Fin 2 → Fin S64x768.rank)
  slices_S64x768_S64x256_0_0 : S64x768.Slices ![0, 0] S64x256
  slices_S64x768_S64x256_0_256 : S64x768.Slices ![0, 256] S64x256
  slices_S64x768_S64x256_0_512 : S64x768.Slices ![0, 512] S64x256
  slices_S768_S256_0 : S768.Slices ![0] S256
  slices_S768_S256_256 : S768.Slices ![256] S256
  slices_S768_S256_512 : S768.Slices ![512] S256
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  bcast_S_S64x256 : S_.BroadcastsInDim S64x256 (![] : Fin 0 → Fin S64x256.rank)
  transposes_S128x256_S256x128_1_0 : S128x256.Transposes [1, 0] S256x128
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S_S64x128 : S_.BroadcastsInDim S64x128 (![] : Fin 0 → Fin S64x128.rank)
  transposes_S2x128_S128x2_1_0 : S2x128.Transposes [1, 0] S128x2
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  transposes_S2x2_S2x2_1_0 : S2x2.Transposes [1, 0] S2x2
  dot_S64x2_S2x768_S64x768_1_0_0_1_n_n_wf : DotDims.WF S64x2 S2x768 S64x768 [1] [0] [0] [1] [] []
  dot_S64x256_S256x128_S64x128_1_0_0_1_n_n_wf : DotDims.WF S64x256 S256x128 S64x128 [1] [0] [0] [1] [] []
  dot_S64x128_S128x2_S64x2_1_0_0_1_n_n_wf : DotDims.WF S64x128 S128x2 S64x2 [1] [0] [0] [1] [] []
  dot_S64x2_S2x2_S64x2_1_0_0_1_n_n_wf : DotDims.WF S64x2 S2x2 S64x2 [1] [0] [0] [1] [] []

variable [Facts₀]

def dot_S64x2_S2x768_S64x768_1_0_0_1_n_n : DotDims S64x2 S2x768 S64x768 where
  lhsContracting := [1]
  rhsContracting := [0]
  lhsNonContracting := [0]
  rhsNonContracting := [1]
  lhsBatch := []
  rhsBatch := []
  wf := dot_S64x2_S2x768_S64x768_1_0_0_1_n_n_wf
def dot_S64x256_S256x128_S64x128_1_0_0_1_n_n : DotDims S64x256 S256x128 S64x128 where
  lhsContracting := [1]
  rhsContracting := [0]
  lhsNonContracting := [0]
  rhsNonContracting := [1]
  lhsBatch := []
  rhsBatch := []
  wf := dot_S64x256_S256x128_S64x128_1_0_0_1_n_n_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf
def dot_S64x2_S2x2_S64x2_1_0_0_1_n_n : DotDims S64x2 S2x2 S64x2 where
  lhsContracting := [1]
  rhsContracting := [0]
  lhsNonContracting := [0]
  rhsNonContracting := [1]
  lhsBatch := []
  rhsBatch := []
  wf := dot_S64x2_S2x2_S64x2_1_0_0_1_n_n_wf

class Facts : Prop extends Facts₀ where

variable [Facts]
-- ==== Proof.LibReadAt.lean ====
/-
  Layout operations and rectangle loads read at an index given by its coordinates, for any sizes.

  A run of consecutive columns `x[:, c:c+w]` of a matrix read at (p, q) is the matrix at (p, c + q), and a run of
  consecutive entries `v[c:c+w]` of a vector read at q is the vector at c + q; the position c + q is named `seg c q`,
  so that a segment starting at 0 and one starting further along are read in one form.  A one-row matrix [1, b] viewed
  as a vector reads at q its entry (0, q).  An array [a, 1, 1, 1, b] with three unit axes viewed as a matrix [a, b]
  reads at (p, k) its entry (p, 0, 0, 0, k).  A load through a unit-stride rectangle at offsets `off` reads, at a local
  index y, the buffer at off + y.  The elementwise logistic and hyperbolic tangent of an array read at an index are
  the scalar functions of the entry.
-/
import Idealize.ShloMosaic.Lib.ValueIdx
import Idealize.ShloMosaic.Lib.Pipeline.Value
import Idealize.ShloMosaic.PureOps.Ideal

noncomputable section

namespace Cert.Lib.ReadAt

open Idealize.ShloMosaic Idealize.ShloMosaic.ValueIdx

variable {α : Type}

/-- Position `q` of the segment of length `w` that starts at `c`, inside `0 … m - 1`. -/
def seg {w m : Nat} (c : Nat) (q : Fin w) (h : c + w ≤ m) : Fin m := ⟨c + q.val, by have := q.isLt; omega⟩

@[simp] theorem seg_val {w m : Nat} (c : Nat) (q : Fin w) (h : c + w ≤ m) : (seg c q h).val = c + q.val := rfl

/-- A block of `w` columns from column `c` fits only if `c + w` is at most the number of columns. -/
theorem cols_le {n m w c : Nat} (h : (⟨2, ![n, m]⟩ : Shape).Slices ![0, c] ⟨2, ![n, w]⟩) : c + w ≤ m := by
  have h1 := h.2 (1 : Fin 2)
  change c + w ≤ m at h1
  exact h1

/-- A run of `w` entries from position `c` fits only if `c + w` is at most the length. -/
theorem run_le {m w c : Nat} (h : (⟨1, ![m]⟩ : Shape).Slices ![c] ⟨1, ![w]⟩) : c + w ≤ m := by
  have h0 := h.2 (0 : Fin 1)
  change c + w ≤ m at h0
  exact h0

/-- Columns `c … c + w - 1` of a matrix, every row kept: entry (p, q) is the matrix's entry (p, c + q). -/
theorem cols_apply {n m w c : Nat} (x : (⟨2, ![n, m]⟩ : Shape).Idx → α)
    (h : (⟨2, ![n, m]⟩ : Shape).Slices ![0, c] ⟨2, ![n, w]⟩) (p : Fin n) (q : Fin w) :
    extractStridedSlice (⟨2, ![n, w]⟩ : Shape) ![0, c] x h (ix2 p q) = x (ix2 p (seg c q (cols_le h))) :=
  extractStridedSlice_apply ![0, c] x h (ix2 p q) (ix2 p (seg c q (cols_le h))) (fun a => match a with
    | ⟨0, _⟩ => show p.val = 0 + p.val from (Nat.zero_add _).symm
    | ⟨1, _⟩ => rfl)

/-- Entries `c … c + w - 1` of a vector: entry q is the vector's entry c + q. -/
theorem run_apply {m w c : Nat} (v : (⟨1, ![m]⟩ : Shape).Idx → α)
    (h : (⟨1, ![m]⟩ : Shape).Slices ![c] ⟨1, ![w]⟩) (q : Fin w) :
    extractStridedSlice (⟨1, ![w]⟩ : Shape) ![c] v h (ix1 q) = v (ix1 (seg c q (run_le h))) :=
  extractStridedSlice_apply ![c] v h (ix1 q) (ix1 (seg c q (run_le h))) (fun a => match a with
    | ⟨0, _⟩ => rfl)

/-- A one-row matrix viewed as a vector: entry q is the row's entry (0, q). -/
theorem vecOfRow_apply {b : Nat} (v : (⟨2, ![1, b]⟩ : Shape).Idx → α)
    (h : (⟨2, ![1, b]⟩ : Shape).ShapeCasts ⟨1, ![b]⟩) (q : Fin b) :
    shapeCast (⟨1, ![b]⟩ : Shape) v h (ix1 q) = v (ix2 (0 : Fin 1) q) := by
  refine shapeCast_apply v h (ix1 q) (ix2 (0 : Fin 1) q) ?_
  rw [Shape.rowMajor_val_one, Shape.rowMajor_val_two]
  show (0 : Fin 1).val * b + q.val = q.val
  simp

/-- An array with three unit axes in the middle viewed as a matrix: entry (p, k) is the array's entry (p, 0, 0, 0, k). -/
theorem matOfUnits_apply {a b : Nat} (v : (⟨5, ![a, 1, 1, 1, b]⟩ : Shape).Idx → α)
    (h : (⟨5, ![a, 1, 1, 1, b]⟩ : Shape).ShapeCasts ⟨2, ![a, b]⟩) (p : Fin a) (k : Fin b) :
    shapeCast (⟨2, ![a, b]⟩ : Shape) v h (ix2 p k) = v (ix5 p (0 : Fin 1) (0 : Fin 1) (0 : Fin 1) k) := by
  refine shapeCast_apply v h (ix2 p k) (ix5 p (0 : Fin 1) (0 : Fin 1) (0 : Fin 1) k) ?_
  rw [Shape.rowMajor_val_five, Shape.rowMajor_val_two]
  show (((p.val * 1 + (0 : Fin 1).val) * 1 + (0 : Fin 1).val) * 1 + (0 : Fin 1).val) * b + k.val = p.val * b + k.val
  simp

/-- A load through a unit-stride rectangle reads, at a local index, the buffer at the offset plus the local index. -/
theorem ld_unit_apply {Val : EltTy → Type} {e : EltTy} {S : Shape} (X : S.Idx → Val e) (off size : Fin S.rank → Nat)
    (inb : ∀ a, off a + size a ≤ S.size a) (y : (Rect.unit off size inb).shape.Idx) (k : S.Idx)
    (hk : ∀ a, (k a).val = off a + (y a).val) : View.ld X (Rect.unit off size inb) y = X k := by
  show X ((Rect.unit off size inb).idx y) = X k
  refine congrArg X (funext fun a => Fin.ext ?_)
  rw [hk a]
  show off a + 1 * (y a).val = off a + (y a).val
  rw [Nat.one_mul]

/-- The elementwise logistic function of an array of extended reals, read at an index. -/
theorem logistic_apply {s : Shape} {φ : FTy} (x : FVec Ideal s φ) (i : s.Idx) : logistic x i = Ideal.logistic (x i) := rfl

/-- The elementwise hyperbolic tangent of an array of extended reals, read at an index. -/
theorem tanh_apply {s : Shape} {φ : FTy} (x : FVec Ideal s φ) (i : s.Idx) : tanh x i = Ideal.tanh (x i) := rfl

end Cert.Lib.ReadAt

end
-- ==== Proof.Spec.lean ====
/-
  What both programs compute, written once over the extended reals, coordinate by coordinate.

  From the five-axis array `flow` only the two numbers x(p, 0), x(p, 1) = flow(p, 63, 32, 32, ·) of each of the 64 rows
  are read.  A gated recurrent cell started from the zero state acts on them:

      gate(p, j)   = x(p,0)·W_ih(j,0) + x(p,1)·W_ih(j,1) + b_ih(j)                           j < 768
      r(p, f)      = σ(gate(p, f) + b_hh(f))
      z(p, f)      = σ(gate(p, 256 + f) + b_hh(256 + f))
      n(p, f)      = tanh(gate(p, 512 + f) + r(p, f)·b_hh(512 + f))
      hidden(p, f) = (1 - z(p, f))·n(p, f)                                                    f < 256

  (σ the logistic function; W_hh never enters, its factor being the zero state), and three dense layers follow:

      act1(p, q) = max(Σ_f hidden(p, f)·W1(q, f) + b1(q), 0)                                  q < 128
      act2(p, c) = tanh(Σ_q act1(p, q)·W2(c, q) + b2(c))                                      c < 2
      out(p, c)  = act2(p, 0)·W3(c, 0) + act2(p, 1)·W3(c, 1) + b3(c).

  The float constants 1 and 0 are kept as their f32 patterns, the same words in both programs.
-/
import proofs.«137453_j73950746902692_2_alg».proof.Proof.LibReadAt
import Idealize.ShloMosaic.PureOps.Ideal
import Idealize.ShloMosaic.Lib.ValueIdx

noncomputable section

open scoped BigOperators

namespace Cert.Spec

open Idealize.ShloMosaic Idealize.ShloMosaic.ValueIdx Cert.Lib.ReadAt

variable (flow : (⟨5, ![64, 64, 64, 64, 2]⟩ : Shape).Idx → EReal) (Wih : (⟨2, ![768, 2]⟩ : Shape).Idx → EReal)
  (bih bhh : (⟨1, ![768]⟩ : Shape).Idx → EReal) (W1 : (⟨2, ![128, 256]⟩ : Shape).Idx → EReal)
  (b1 : (⟨1, ![128]⟩ : Shape).Idx → EReal) (W2 : (⟨2, ![2, 128]⟩ : Shape).Idx → EReal)
  (b2 : (⟨1, ![2]⟩ : Shape).Idx → EReal) (W3 : (⟨2, ![2, 2]⟩ : Shape).Idx → EReal) (b3 : (⟨1, ![2]⟩ : Shape).Idx → EReal)

/-- The float 1.0. -/
abbrev one : EReal := Ideal.ofBits .f32 0x3F800000#32
/-- The float 0.0. -/
abbrev zero : EReal := Ideal.ofBits .f32 0x00000000#32

/-- The input-to-hidden affine map of row p's two numbers, for all three gates side by side. -/
def gate (p : Fin 64) (j : Fin 768) : EReal :=
  flow (ix5 p (63 : Fin 64) (32 : Fin 64) (32 : Fin 64) (0 : Fin 2)) * Wih (ix2 j (0 : Fin 2))
    + flow (ix5 p (63 : Fin 64) (32 : Fin 64) (32 : Fin 64) (1 : Fin 2)) * Wih (ix2 j (1 : Fin 2)) + bih (ix1 j)

/-- The cell's new state from the zero state: (1 - z)·n. -/
def hidden (p : Fin 64) (f : Fin 256) : EReal :=
  (one - Ideal.logistic (gate flow Wih bih p (seg 256 f (by decide)) + bhh (ix1 (seg 256 f (by decide)))))
    * Ideal.tanh (gate flow Wih bih p (seg 512 f (by decide))
        + Ideal.logistic (gate flow Wih bih p (seg 0 f (by decide)) + bhh (ix1 (seg 0 f (by decide))))
          * bhh (ix1 (seg 512 f (by decide))))

/-- The first dense layer with its rectifier, of any hidden state `H`. -/
def act1 (H : Fin 64 → Fin 256 → EReal) (p : Fin 64) (q : Fin 128) : EReal :=
  max ((∑ f : Fin 256, H p f * W1 (ix2 q f)) + b1 (ix1 q)) zero

/-- The second dense layer with its hyperbolic tangent. -/
def act2 (H : Fin 64 → Fin 256 → EReal) (p : Fin 64) (c : Fin 2) : EReal :=
  Ideal.tanh ((∑ q : Fin 128, act1 W1 b1 H p q * W2 (ix2 c q)) + b2 (ix1 c))

/-- The last dense layer. -/
def out (H : Fin 64 → Fin 256 → EReal) (p : Fin 64) (c : Fin 2) : EReal :=
  act2 W1 b1 W2 b2 H p (0 : Fin 2) * W3 (ix2 c (0 : Fin 2))
    + act2 W1 b1 W2 b2 H p (1 : Fin 2) * W3 (ix2 c (1 : Fin 2)) + b3 (ix1 c)

/-- The result array [64, 2]: the three dense layers of the cell's new state. -/
def result : (⟨2, ![64, 2]⟩ : Shape).Idx → EReal :=
  fun j => out W1 b1 W2 b2 W3 b3 (hidden flow Wih bih bhh) (j 0) (j 1)

theorem result_apply (p : Fin 64) (c : Fin 2) :
    result flow Wih bih bhh W1 b1 W2 b2 W3 b3 (ix2 p c) = out W1 b1 W2 b2 W3 b3 (hidden flow Wih bih bhh) p c := rfl

end Cert.Spec

end
-- ==== Proof.LibRank2Layout.lean ====
/-
  Rank-2 layout operations read at an index given by its two coordinates.

  A column slice `x[:, c:c+1]` of an [a, n] array read at (p, 0) is x at (p, c); a row slice `x[c:c+1, :]` of an
  [n, b] array read at (0, q) is x at (c, q); a column [a, 1] broadcast along lanes to [a, b] reads, at (p, q), the
  column at (p, 0); a row [1, b] broadcast along sublanes to [a, b] reads, at (p, q), the row at (0, q).  Each is one
  instance of the library's read-at-an-index lemma for the operation, with the coordinate arithmetic discharged once
  for all sizes.  Last, two shape casts of one array read at indices with equal row-major positions are equal.
-/
import Idealize.ShloMosaic.Lib.ValueIdx
import Idealize.ShloMosaic.Lib.Pipeline.Value

namespace Idealize.ShloMosaic.Rank2

open Idealize.ShloMosaic Idealize.ShloMosaic.ValueIdx

variable {α : Type}

/-- A one-column slice at column offset `c` fits only if `c` is a column of the array. -/
theorem col_lt {a n c : Nat} (h : (⟨2, ![a, n]⟩ : Shape).Slices ![0, c] ⟨2, ![a, 1]⟩) : c < n := by
  have h1 := h.2 (1 : Fin 2)
  change c + 1 ≤ n at h1
  omega

/-- A one-row slice at row offset `c` fits only if `c` is a row of the array. -/
theorem row_lt {n b c : Nat} (h : (⟨2, ![n, b]⟩ : Shape).Slices ![c, 0] ⟨2, ![1, b]⟩) : c < n := by
  have h0 := h.2 (0 : Fin 2)
  change c + 1 ≤ n at h0
  omega

/-- The column slice `x[:, c:c+1]` at (p, 0) is `x` at (p, c). -/
theorem sliceCol_apply {a n c : Nat} (x : (⟨2, ![a, n]⟩ : Shape).Idx → α)
    (h : (⟨2, ![a, n]⟩ : Shape).Slices ![0, c] ⟨2, ![a, 1]⟩) (p : Fin a) (z : Fin 1) :
    extractStridedSlice (⟨2, ![a, 1]⟩ : Shape) ![0, c] x h (ix2 p z) = x (ix2 p (⟨c, col_lt h⟩ : Fin n)) :=
  extractStridedSlice_apply ![0, c] x h (ix2 p z) (ix2 p (⟨c, col_lt h⟩ : Fin n)) (fun d => match d with
    | ⟨0, _⟩ => by show p.val = 0 + p.val; omega
    | ⟨1, _⟩ => by show c = c + z.val; have := z.isLt; omega)

/-- The row slice `x[c:c+1, :]` at (0, q) is `x` at (c, q). -/
theorem sliceRow_apply {n b c : Nat} (x : (⟨2, ![n, b]⟩ : Shape).Idx → α)
    (h : (⟨2, ![n, b]⟩ : Shape).Slices ![c, 0] ⟨2, ![1, b]⟩) (z : Fin 1) (q : Fin b) :
    extractStridedSlice (⟨2, ![1, b]⟩ : Shape) ![c, 0] x h (ix2 z q) = x (ix2 (⟨c, row_lt h⟩ : Fin n) q) :=
  extractStridedSlice_apply ![c, 0] x h (ix2 z q) (ix2 (⟨c, row_lt h⟩ : Fin n) q) (fun d => match d with
    | ⟨0, _⟩ => by show c = c + z.val; have := z.isLt; omega
    | ⟨1, _⟩ => by show q.val = 0 + q.val; omega)

/-- A column broadcast along the second axis: entry (p, q) is the column's entry (p, 0). -/
theorem bcastCol_apply {a b : Nat} (v : (⟨2, ![a, 1]⟩ : Shape).Idx → α)
    (h : (⟨2, ![a, 1]⟩ : Shape).Broadcasts ⟨2, ![a, b]⟩) (p : Fin a) (q : Fin b) :
    broadcastTo (⟨2, ![a, b]⟩ : Shape) v h (ix2 p q) = v (ix2 p (0 : Fin 1)) :=
  broadcastTo_apply v h (ix2 p q) (ix2 p (0 : Fin 1)) (fun d => match d with
    | ⟨0, _⟩ => by
        show p.val = if a = 1 then 0 else p.val
        by_cases ha : a = 1
        · rw [if_pos ha]; have := p.isLt; omega
        · rw [if_neg ha]
    | ⟨1, _⟩ => by show 0 = if (1 : Nat) = 1 then 0 else q.val; rw [if_pos rfl])

/-- A row broadcast along the first axis: entry (p, q) is the row's entry (0, q). -/
theorem bcastRow_apply {a b : Nat} (v : (⟨2, ![1, b]⟩ : Shape).Idx → α)
    (h : (⟨2, ![1, b]⟩ : Shape).Broadcasts ⟨2, ![a, b]⟩) (p : Fin a) (q : Fin b) :
    broadcastTo (⟨2, ![a, b]⟩ : Shape) v h (ix2 p q) = v (ix2 (0 : Fin 1) q) :=
  broadcastTo_apply v h (ix2 p q) (ix2 (0 : Fin 1) q) (fun d => match d with
    | ⟨0, _⟩ => by show 0 = if (1 : Nat) = 1 then 0 else p.val; rw [if_pos rfl]
    | ⟨1, _⟩ => by
        show q.val = if b = 1 then 0 else q.val
        by_cases hb : b = 1
        · rw [if_pos hb]; have := q.isLt; omega
        · rw [if_neg hb])

end Idealize.ShloMosaic.Rank2

namespace Idealize.ShloMosaic

/-- Two shape casts of one array agree at indices with the same row-major position. -/
theorem shapeCast_eq_shapeCast {α : Type} {s t u : Shape} (x : s.Idx → α) (h : s.ShapeCasts t) (h' : s.ShapeCasts u)
    (j : t.Idx) (k : u.Idx) (e : (t.rowMajor j).val = (u.rowMajor k).val) :
    shapeCast t x h j = shapeCast u x h' k := by
  unfold shapeCast
  exact congrArg x (Shape.reshapeEquiv_eq_of_rowMajor h ((Shape.rowMajor_reshapeEquiv h' k).trans e.symm))

end Idealize.ShloMosaic
-- ==== Proof.LibPlainDot.lean ====
/-
  A plain matrix product's contraction sum, for any sizes.  For dimension numbers that contract the left operand's
  second axis with the right operand's first, keep the left operand's first axis and the right operand's second, and
  have no batch axes, the sum over the contraction index of the operands' products at output index (p, q) is
  the sum over k of L (p, k) * R (k, q).  With it, a matmul into the zero accumulator and a host dot_general, read at
  (p, q) on the extended reals, are that sum.
-/
import Idealize.ShloMosaic.PureOps.Ideal.Laws
import Idealize.ShloMosaic.Lib.ValueIdx

noncomputable section

open scoped BigOperators

namespace Cert.Bridge

open Idealize.ShloMosaic Idealize.ShloMosaic.ValueIdx

/-- The contraction shape of plain dimension numbers has one axis, of extent K; the operand indices at output index
    (p, q) and the contraction index whose one coordinate is k are (p, k) and (k, q). -/
theorem plain_idx {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) :
    ∃ (hr : d.contr.rank = 1) (hs : d.contr.size ⟨0, by omega⟩ = K), ∀ (p : Fin A) (q : Fin B) (k : Fin K),
      d.lhsIdx (ix2 p q) ((contrEquiv1 d K hr hs).symm k) = ix2 p k ∧
      d.rhsIdx (ix2 p q) ((contrEquiv1 d K hr hs).symm k) = ix2 k q := by
  obtain ⟨lc, rc, ln, rn, lb, rb, wf⟩ := d
  simp only at hlc hrc hln hrn hlb hrb
  subst hlc hrc hln hrn hlb hrb
  refine ⟨rfl, rfl, fun p q k => ⟨?_, ?_⟩⟩
  · funext a
    match a with
    | ⟨0, _⟩ => exact Fin.ext rfl
    | ⟨1, _⟩ => exact Fin.ext rfl
  · funext a
    match a with
    | ⟨0, _⟩ => exact Fin.ext rfl
    | ⟨1, _⟩ => exact Fin.ext rfl

/-- THE CONTRACTION SUM of a plain product at (p, q): the sum over k of L (p, k) * R (k, q). -/
theorem plain_sum {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (L : (⟨2, ![A, K]⟩ : Shape).Idx → EReal) (R : (⟨2, ![K, B]⟩ : Shape).Idx → EReal) (p : Fin A) (q : Fin B) :
    ∑ κ : d.contr.Idx, L (d.lhsIdx (ix2 p q) κ) * R (d.rhsIdx (ix2 p q) κ) = ∑ k : Fin K, L (ix2 p k) * R (ix2 k q) := by
  obtain ⟨hr, hs, h⟩ := plain_idx d hlc hrc hln hrn hlb hrb
  rw [← Equiv.sum_comp (contrEquiv1 d K hr hs).symm]
  exact Finset.sum_congr rfl fun k _ => by rw [(h p q k).1, (h p q k).2]

/-- A matmul of plain dimension numbers into the zero accumulator, read at (p, q) on the extended reals. -/
theorem matmul_zero_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q)
      = ∑ k : Fin K, lhs (ix2 p k) * rhs (ix2 k q) :=
  (Ideal.matmul_constant_zero_apply d prec lhs rhs (ix2 p q)).trans (plain_sum d hlc hrc hln hrn hlb hrb lhs rhs p q)

/-- A host dot_general of plain dimension numbers, read at (p, q) on the extended reals. -/
theorem dotGeneral_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ φ₁)
    (rhs : FVec Ideal ⟨2, ![K, B]⟩ φ₂) (p : Fin A) (q : Fin B) :
    FloatOps.dotGeneral d prec sched lhs rhs (ix2 p q) = ∑ k : Fin K, lhs (ix2 p k) * rhs (ix2 k q) :=
  (Ideal.dotGeneral_apply d prec sched lhs rhs (ix2 p q)).trans (plain_sum d hlc hrc hln hrn hlb hrb lhs rhs p q)

end Cert.Bridge

end
-- ==== Proof.LibHostMatrix.lean ====
/-
  Host-side readings of vectors and matrices at an index, for any sizes: a vector reshaped to a one-row matrix, a
  matrix transposed, a scalar constant broadcast to any shape, and — on the extended reals — the host's sum of a
  matrix along its last axis as the initial value plus the finite sum of the row.
-/
import Idealize.ShloMosaic.Lib.ValueIdx
import Idealize.ShloMosaic.Lib.Pipeline.Value
import Idealize.ShloMosaic.PureOps.Ideal.Laws

noncomputable section

open scoped BigOperators

namespace Cert.Lib.HostMatrix

open Idealize.ShloMosaic Idealize.ShloMosaic.ValueIdx

/-- A vector reshaped to a one-row matrix: entry (0, q) is the vector's entry q. -/
theorem rowOfVec_apply {α : Type} {b : Nat} (v : (⟨1, ![b]⟩ : Shape).Idx → α)
    (h : (⟨1, ![b]⟩ : Shape).ShapeCasts ⟨2, ![1, b]⟩) (z : Fin 1) (q : Fin b) :
    shapeCast (⟨2, ![1, b]⟩ : Shape) v h (ix2 z q) = v (ix1 q) := by
  refine shapeCast_apply v h (ix2 z q) (ix1 q) ?_
  rw [Shape.rowMajor_val_one, Shape.rowMajor_val_two]
  show q.val = z.val * b + q.val
  have hz : z.val = 0 := by have := z.isLt; omega
  rw [hz, Nat.zero_mul, Nat.zero_add]

/-- A matrix transposed: entry (p, q) of the transpose is entry (q, p). -/
theorem transposed_apply {α : Type} {a b : Nat} (x : (⟨2, ![a, b]⟩ : Shape).Idx → α)
    (h : (⟨2, ![a, b]⟩ : Shape).Transposes [(1 : Fin 2), 0] ⟨2, ![b, a]⟩) (p : Fin b) (q : Fin a) :
    transpose (⟨2, ![b, a]⟩ : Shape) [(1 : Fin 2), 0] x h (ix2 p q) = x (ix2 q p) :=
  transpose_apply [(1 : Fin 2), 0] x h (ix2 p q) (ix2 q p) (fun d => match d with
    | ⟨0, _⟩ => rfl
    | ⟨1, _⟩ => rfl)

/-- A scalar constant broadcast to any shape: every entry is the constant's value. -/
theorem splat_apply {s : Shape} (h : (⟨0, ![]⟩ : Shape).BroadcastsInDim s (![] : Fin 0 → Fin s.rank)) (w : BitVec 32)
    (j : s.Idx) : broadcastInDim s ![] h (constant (F := Ideal) ⟨0, ![]⟩ .f32 w) j = Ideal.ofBits .f32 w :=
  broadcastInDim_apply _ h _ j ix0 (fun a => a.elim0)

/-- Over a row index p, the source index of a reduction along the last axis with coordinate k appends k. -/
theorem lift_lastAxis {a b : ℕ} (h : (⟨2, ![a, b]⟩ : Shape).Reduces [(1 : Fin 2)] ⟨1, ![a]⟩) (p : Fin a)
    (k : Fin ((⟨2, ![a, b]⟩ : Shape).size 1)) : h.lift (ix1 p) k = ix2 p (k : Fin b) := by
  funext c; apply Fin.ext; rw [h.lift_val]
  match c with
  | ⟨0, _⟩ => rfl
  | ⟨1, _⟩ => rfl

/-- The host's sum of a matrix along its last axis, at row p: the initial value plus the finite sum of the row. -/
theorem hostSum_last2 {a b : ℕ} {φ : FTy} (x : FVec Ideal ⟨2, ![a, b]⟩ φ) (v : (⟨0, ![]⟩ : Shape).Idx → Ideal φ)
    (h' : (⟨2, ![a, b]⟩ : Shape).ReducesTo [(1 : Fin 2)] ⟨1, ![a]⟩)
    (h : (⟨2, ![a, b]⟩ : Shape).Reduces [(1 : Fin 2)] ⟨1, ![a]⟩) (hu : 0 < (⟨0, ![]⟩ : Shape).numel) (p : Fin a) :
    Host.reduceAdd x v h' hu (ix1 p) = v ix0 + ∑ k : Fin b, x (ix2 p k) := by
  show Ideal.hostReduceAdd h' x (v (Shape.Idx.first hu)) (ix1 p) = _
  rw [Ideal.hostReduceAdd_single h' h, eq_ix0 (Shape.Idx.first hu)]
  exact congrArg (v ix0 + ·) (Finset.sum_congr rfl fun k _ => congrArg x (lift_lastAxis h p k))

end Cert.Lib.HostMatrix

end
-- ==== Proof.KernelPayload.lean ====
/-
  The kernel body's arithmetic, read entry by entry.

  The body computes its result in two steps.  The first takes the loaded [64,1,1,1,2] piece of `flow`, the two rows
  of the transposed input weight, and the two bias vectors, and forms the cell's new state [64, 256]: entry (p, f) is
  `Spec.hidden` whenever the loaded pieces hold the entries of the argument arrays they were cut from.  The second
  takes that state and the dense layers' weights and forms the result [64, 2]: entry (p, c) is `Spec.out` of the
  state.  Every layout step (a slice, a unit-axis cast, a broadcast, a transpose) is read at an index by one lemma,
  a matrix product into the zero accumulator is the finite sum over the contracted axis, and a change of float
  format is the identity on the extended reals.
-/
import proofs.«137453_j73950746902692_2_alg».proof.Proof.Gen.KernelIdeal.Skeleton
import proofs.«137453_j73950746902692_2_alg».proof.Proof.Spec
import proofs.«137453_j73950746902692_2_alg».proof.Proof.LibReadAt
import proofs.«137453_j73950746902692_2_alg».proof.Proof.LibRank2Layout
import proofs.«137453_j73950746902692_2_alg».proof.Proof.LibPlainDot
import proofs.«137453_j73950746902692_2_alg».proof.Proof.LibHostMatrix
import Idealize.ShloMosaic.PureOps.Ideal.Laws

noncomputable section

open scoped BigOperators

namespace Cert.KernelIdeal.Hand

open Cert.KernelIdeal Cert.KernelIdeal.Gen Idealize.ShloMosaic Idealize.ShloMosaic.ValueIdx
open Cert.Lib.ReadAt Cert.Lib.HostMatrix Idealize.ShloMosaic.Rank2

/-- The first matrix product of the body, into the zero accumulator: the sum over the 256 hidden units. -/
theorem product1 (l : FVec Ideal S64x256 .bf16) (r : FVec Ideal S256x128 .bf16) (p : Fin 64) (q : Fin 128) :
    matmul dot_S64x256_S256x128_S64x128_1_0_0_1_n_n none l r (constant S64x128 .f32 0x00000000#32) (ix2 p q)
      = ∑ k : Fin 256, l (ix2 p k) * r (ix2 k q) :=
  Cert.Bridge.matmul_zero_plain dot_S64x256_S256x128_S64x128_1_0_0_1_n_n rfl rfl rfl rfl rfl rfl none l r p q

/-- The second matrix product of the body, into the zero accumulator: the sum over the 128 units of the first layer. -/
theorem product2 (l : FVec Ideal S64x128 .bf16) (r : FVec Ideal S128x2 .bf16) (p : Fin 64) (c : Fin 2) :
    matmul dot_S64x128_S128x2_S64x2_1_0_0_1_n_n none l r (constant S64x2 .f32 0x00000000#32) (ix2 p c)
      = ∑ k : Fin 128, l (ix2 p k) * r (ix2 k c) :=
  Cert.Bridge.matmul_zero_plain dot_S64x128_S128x2_S64x2_1_0_0_1_n_n rfl rfl rfl rfl rfl rfl none l r p c

variable (flow : (⟨5, ![64, 64, 64, 64, 2]⟩ : Shape).Idx → EReal) (Wih : (⟨2, ![768, 2]⟩ : Shape).Idx → EReal)
  (bih bhh : (⟨1, ![768]⟩ : Shape).Idx → EReal) (W1 : (⟨2, ![128, 256]⟩ : Shape).Idx → EReal)
  (b1 : (⟨1, ![128]⟩ : Shape).Idx → EReal) (W2 : (⟨2, ![2, 128]⟩ : Shape).Idx → EReal)
  (b2 : (⟨1, ![2]⟩ : Shape).Idx → EReal) (W3 : (⟨2, ![2, 2]⟩ : Shape).Idx → EReal) (b3 : (⟨1, ![2]⟩ : Shape).Idx → EReal)

/-- THE CELL'S NEW STATE as the body computes it: entry (p, f) of the first step's value is `Spec.hidden`, when the
    loaded pieces hold row 63 / plane 32 / column 32 of `flow`, the two columns of `W_ih` and the two biases. -/
theorem state_apply (v0 : Vec Ideal S64x1x1x1x2 .f32) (v2 v4 : Vec Ideal S1x768 .f32) (v6 v21 : Vec Ideal S768 .f32)
    (h0 : ∀ (p : Fin 64) (k : Fin 2), v0 (ix5 p (0 : Fin 1) (0 : Fin 1) (0 : Fin 1) k) = flow (ix5 p (63 : Fin 64) (32 : Fin 64) (32 : Fin 64) k))
    (h2 : ∀ j : Fin 768, v2 (ix2 (0 : Fin 1) j) = Wih (ix2 j (0 : Fin 2)))
    (h4 : ∀ j : Fin 768, v4 (ix2 (0 : Fin 1) j) = Wih (ix2 j (1 : Fin 2)))
    (h6 : ∀ j : Fin 768, v6 (ix1 j) = bih (ix1 j)) (h21 : ∀ j : Fin 768, v21 (ix1 j) = bhh (ix1 j))
    (p : Fin 64) (f : Fin 256) :
    k0_pay2 (F := Ideal) v0 v2 v4 v6 v21 (ix2 p f) = Cert.Spec.hidden flow Wih bih bhh p f := by
  unfold k0_pay2 Cert.Spec.hidden Cert.Spec.gate
  simp only [mulf_apply, addf_apply, subf_apply, truncf_apply, broadcast_apply, logistic_apply, tanh_apply,
    bcastCol_apply, bcastRow_apply, sliceCol_apply, cols_apply, run_apply, rowOfVec_apply, vecOfRow_apply,
    matOfUnits_apply, h0, h2, h4, h6, h21]
  rfl

/-- THE RESULT as the body computes it from a state: entry (p, c) of the second step's value is `Spec.out` of the
    state, when the loaded pieces hold the dense layers' weights and biases (the last layer's weight arrives
    transposed: its row k is column k of `W3`). -/
theorem result_apply (H : Fin 64 → Fin 256 → EReal) (v44 : FVec Ideal S64x256 .bf16) (v45 : Vec Ideal S128x256 .f32)
    (v49 : Vec Ideal S128 .f32) (v56 : Vec Ideal S2x128 .f32) (v60 : Vec Ideal S2 .f32) (v65 v67 : Vec Ideal S1x2 .f32)
    (v69 : Vec Ideal S2 .f32)
    (h44 : ∀ (p : Fin 64) (f : Fin 256), v44 (ix2 p f) = H p f)
    (h45 : ∀ (q : Fin 128) (f : Fin 256), v45 (ix2 q f) = W1 (ix2 q f))
    (h49 : ∀ q : Fin 128, v49 (ix1 q) = b1 (ix1 q))
    (h56 : ∀ (c : Fin 2) (q : Fin 128), v56 (ix2 c q) = W2 (ix2 c q))
    (h60 : ∀ c : Fin 2, v60 (ix1 c) = b2 (ix1 c))
    (h65 : ∀ c : Fin 2, v65 (ix2 (0 : Fin 1) c) = W3 (ix2 c (0 : Fin 2)))
    (h67 : ∀ c : Fin 2, v67 (ix2 (0 : Fin 1) c) = W3 (ix2 c (1 : Fin 2)))
    (h69 : ∀ c : Fin 2, v69 (ix1 c) = b3 (ix1 c))
    (p : Fin 64) (c : Fin 2) :
    k0_pay1 (F := Ideal) v44 v45 v49 v56 v60 v65 v67 v69 (ix2 p c) = Cert.Spec.out W1 b1 W2 b2 W3 b3 H p c := by
  unfold k0_pay1 Cert.Spec.out Cert.Spec.act2 Cert.Spec.act1
  simp only [mulf_apply, addf_apply, maximumf_apply, truncf_apply, broadcast_apply, tanh_apply, product1, product2,
    bcastCol_apply, bcastRow_apply, sliceCol_apply, rowOfVec_apply, vecOfRow_apply,
    h44, h49, h60, h65, h67, h69]
  -- the two weights transposed inside the body: entry (f, q) of a transpose is entry (q, f)
  generalize hT1 : transpose S256x128 _ (truncf (F := Ideal) FTy.bf16 v45 bitsLt_bf16_f32) _ = T1
  generalize hT2 : transpose S128x2 _ (truncf (F := Ideal) FTy.bf16 v56 bitsLt_bf16_f32) _ = T2
  have e1 : ∀ (f : Fin 256) (q : Fin 128), T1 (ix2 f q) = W1 (ix2 q f) := fun f q => by
    rw [← hT1]; exact (transposed_apply _ _ f q).trans (h45 q f)
  have e2 : ∀ (q : Fin 128) (c : Fin 2), T2 (ix2 q c) = W2 (ix2 c q) := fun q c => by
    rw [← hT2]; exact (transposed_apply _ _ q c).trans (h56 c q)
  simp only [e1, e2]
  rfl

end Cert.KernelIdeal.Hand

end
-- ==== Proof.KernelValue.lean ====
/-
  The kernel's run ends with the result array at `Spec.result` of the argument arrays.

  The grid has one point.  Its input windows are the whole arrays, except the window over `flow`: its block
  [64, 1, 1, 8, 2] is the block of index (0, 63, 32, 4, 0), that is rows 0 … 63 at (63, 32), columns 32 … 39, of which
  the body loads the first column.  Two of the windows' arrays are written by the host before the call: the transposes
  of `W_ih` and of `W3`, whose rows the body loads one at a time.  So every loaded piece holds entries of the argument
  arrays, the body's value is `Spec.result` of them (the two steps of the body's arithmetic), the one block written
  back is the whole [64, 2] array, and the array ends holding it.
-/
import proofs.«137453_j73950746902692_2_alg».proof.Proof.Gen.KernelIdeal.Frame
import proofs.«137453_j73950746902692_2_alg».proof.Proof.Gen.KernelIdeal.Value
import proofs.«137453_j73950746902692_2_alg».proof.Proof.KernelPayload
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.Value Cert.Lib.ReadAt Cert.Lib.HostMatrix

variable (m : (ℓ : Loc nD τ sig) → Buf (Elt Ideal) ℓ) (ρ : Dev nD → PrngReg)

/-! ## Where each window's block sits (decided over the one grid point) -/

/-- The window over `flow` sits at block index (0, 63, 32, 4, 0). -/
theorem where0 : ∀ t : Fin cfg0.N, win0_0.index t (0 : Fin 5) = 0 ∧ win0_0.index t (1 : Fin 5) = 63
    ∧ win0_0.index t (2 : Fin 5) = 32 ∧ win0_0.index t (3 : Fin 5) = 4 ∧ win0_0.index t (4 : Fin 5) = 0 :=
  (by decide +kernel : ∀ t : Fin grid0.N, _)
/-- Window 1 sits at block index (0, 0): its block is the whole array. -/
theorem where1 : ∀ t : Fin cfg0.N, win0_1.index t (0 : Fin 2) = 0 ∧ win0_1.index t (1 : Fin 2) = 0 :=
  (by decide +kernel : ∀ t : Fin grid0.N, _)
/-- Window 4 sits at block index (0, 0): its block is the whole array. -/
theorem where4 : ∀ t : Fin cfg0.N, win0_4.index t (0 : Fin 2) = 0 ∧ win0_4.index t (1 : Fin 2) = 0 :=
  (by decide +kernel : ∀ t : Fin grid0.N, _)
/-- Window 6 sits at block index (0, 0): its block is the whole array. -/
theorem where6 : ∀ t : Fin cfg0.N, win0_6.index t (0 : Fin 2) = 0 ∧ win0_6.index t (1 : Fin 2) = 0 :=
  (by decide +kernel : ∀ t : Fin grid0.N, _)
/-- Window 8 sits at block index (0, 0): its block is the whole array. -/
theorem where8 : ∀ t : Fin cfg0.N, win0_8.index t (0 : Fin 2) = 0 ∧ win0_8.index t (1 : Fin 2) = 0 :=
  (by decide +kernel : ∀ t : Fin grid0.N, _)
/-- Window 10 sits at block index (0, 0): its block is the whole array. -/
theorem where10 : ∀ t : Fin cfg0.N, win0_10.index t (0 : Fin 2) = 0 ∧ win0_10.index t (1 : Fin 2) = 0 :=
  (by decide +kernel : ∀ t : Fin grid0.N, _)
/-- Window 2 sits at block index 0: its block is the whole vector. -/
theorem where2 : ∀ t : Fin cfg0.N, win0_2.index t (0 : Fin 1) = 0 :=
  (by decide +kernel : ∀ t : Fin grid0.N, _)
/-- Window 3 sits at block index 0: its block is the whole vector. -/
theorem where3 : ∀ t : Fin cfg0.N, win0_3.index t (0 : Fin 1) = 0 :=
  (by decide +kernel : ∀ t : Fin grid0.N, _)
/-- Window 5 sits at block index 0: its block is the whole vector. -/
theorem where5 : ∀ t : Fin cfg0.N, win0_5.index t (0 : Fin 1) = 0 :=
  (by decide +kernel : ∀ t : Fin grid0.N, _)
/-- Window 7 sits at block index 0: its block is the whole vector. -/
theorem where7 : ∀ t : Fin cfg0.N, win0_7.index t (0 : Fin 1) = 0 :=
  (by decide +kernel : ∀ t : Fin grid0.N, _)
/-- Window 9 sits at block index 0: its block is the whole vector. -/
theorem where9 : ∀ t : Fin cfg0.N, win0_9.index t (0 : Fin 1) = 0 :=
  (by decide +kernel : ∀ t : Fin grid0.N, _)

/-! ## The blocks as entries of the arrays the region finds -/

/-- The block of `flow`: entry (p, 0, 0, 0, k) of the block is flow (p, 63, 32, 32, k). -/
theorem block0_apply (c : Dev nD) (t : Fin cfg0.N) (p : Fin 64) (k : Fin 2) :
    (iblk m c 0 t : Vec Ideal S64x1x1x8x2 .f32) (ix5 p (0 : Fin 1) (0 : Fin 1) (0 : Fin 8) k)
      = (V m c main_arg0 : S64x64x64x64x2.Idx → Elt Ideal .f32) (ix5 p (63 : Fin 64) (32 : Fin 64) (32 : Fin 64) k) := by
  obtain ⟨e0, e1, e2, e3, e4⟩ := where0 t
  unfold iblk
  rw [View.read_apply]
  show V m c main_arg0 _ = V m c main_arg0 _
  congr 1
  funext a
  apply Fin.ext
  match a with
  | ⟨0, _⟩ => show win0_0.index t (0 : Fin 5) * 64 + 1 * p.val = p.val; rw [e0]; omega
  | ⟨1, _⟩ => show win0_0.index t (1 : Fin 5) * 1 + 1 * (0 : Fin 1).val = (63 : Fin 64).val; rw [e1]; rfl
  | ⟨2, _⟩ => show win0_0.index t (2 : Fin 5) * 1 + 1 * (0 : Fin 1).val = (32 : Fin 64).val; rw [e2]; rfl
  | ⟨3, _⟩ => show win0_0.index t (3 : Fin 5) * 8 + 1 * (0 : Fin 8).val = (32 : Fin 64).val; rw [e3]; rfl
  | ⟨4, _⟩ => show win0_0.index t (4 : Fin 5) * 2 + 1 * k.val = k.val; rw [e4]; omega

/-- Window 1's block is its whole array. -/
theorem block1_apply (c : Dev nD) (t : Fin cfg0.N) (y : S2x768.Idx) :
    (iblk m c 1 t : Vec Ideal S2x768 .f32) y = (V m c main_v0 : S2x768.Idx → Elt Ideal .f32) y := by
  obtain ⟨e0, e1⟩ := where1 t
  unfold iblk
  rw [View.read_apply]
  show V m c main_v0 _ = V m c main_v0 y
  congr 1
  funext a
  apply Fin.ext
  match a with
  | ⟨0, _⟩ => show win0_1.index t (0 : Fin 2) * 2 + 1 * (y 0).val = (y 0).val; rw [e0]; omega
  | ⟨1, _⟩ => show win0_1.index t (1 : Fin 2) * 768 + 1 * (y 1).val = (y 1).val; rw [e1]; omega

/-- Window 4's block is its whole array. -/
theorem block4_apply (c : Dev nD) (t : Fin cfg0.N) (y : S128x256.Idx) :
    (iblk m c 4 t : Vec Ideal S128x256 .f32) y = (V m c main_arg5 : S128x256.Idx → Elt Ideal .f32) y := by
  obtain ⟨e0, e1⟩ := where4 t
  unfold iblk
  rw [View.read_apply]
  show V m c main_arg5 _ = V m c main_arg5 y
  congr 1
  funext a
  apply Fin.ext
  match a with
  | ⟨0, _⟩ => show win0_4.index t (0 : Fin 2) * 128 + 1 * (y 0).val = (y 0).val; rw [e0]; omega
  | ⟨1, _⟩ => show win0_4.index t (1 : Fin 2) * 256 + 1 * (y 1).val = (y 1).val; rw [e1]; omega

/-- Window 6's block is its whole array. -/
theorem block6_apply (c : Dev nD) (t : Fin cfg0.N) (y : S2x128.Idx) :
    (iblk m c 6 t : Vec Ideal S2x128 .f32) y = (V m c main_arg7 : S2x128.Idx → Elt Ideal .f32) y := by
  obtain ⟨e0, e1⟩ := where6 t
  unfold iblk
  rw [View.read_apply]
  show V m c main_arg7 _ = V m c main_arg7 y
  congr 1
  funext a
  apply Fin.ext
  match a with
  | ⟨0, _⟩ => show win0_6.index t (0 : Fin 2) * 2 + 1 * (y 0).val = (y 0).val; rw [e0]; omega
  | ⟨1, _⟩ => show win0_6.index t (1 : Fin 2) * 128 + 1 * (y 1).val = (y 1).val; rw [e1]; omega

/-- Window 8's block is its whole array. -/
theorem block8_apply (c : Dev nD) (t : Fin cfg0.N) (y : S2x2.Idx) :
    (iblk m c 8 t : Vec Ideal S2x2 .f32) y = (V m c main_v1 : S2x2.Idx → Elt Ideal .f32) y := by
  obtain ⟨e0, e1⟩ := where8 t
  unfold iblk
  rw [View.read_apply]
  show V m c main_v1 _ = V m c main_v1 y
  congr 1
  funext a
  apply Fin.ext
  match a with
  | ⟨0, _⟩ => show win0_8.index t (0 : Fin 2) * 2 + 1 * (y 0).val = (y 0).val; rw [e0]; omega
  | ⟨1, _⟩ => show win0_8.index t (1 : Fin 2) * 2 + 1 * (y 1).val = (y 1).val; rw [e1]; omega

/-- Window 2's block is its whole vector. -/
theorem block2_apply (c : Dev nD) (t : Fin cfg0.N) (y : S768.Idx) :
    (iblk m c 2 t : Vec Ideal S768 .f32) y = (V m c main_arg2 : S768.Idx → Elt Ideal .f32) y := by
  have e0 := where2 t
  unfold iblk
  rw [View.read_apply]
  show V m c main_arg2 _ = V m c main_arg2 y
  congr 1
  funext a
  apply Fin.ext
  match a with
  | ⟨0, _⟩ => show win0_2.index t (0 : Fin 1) * 768 + 1 * (y 0).val = (y 0).val; rw [e0]; omega

/-- Window 3's block is its whole vector. -/
theorem block3_apply (c : Dev nD) (t : Fin cfg0.N) (y : S768.Idx) :
    (iblk m c 3 t : Vec Ideal S768 .f32) y = (V m c main_arg4 : S768.Idx → Elt Ideal .f32) y := by
  have e0 := where3 t
  unfold iblk
  rw [View.read_apply]
  show V m c main_arg4 _ = V m c main_arg4 y
  congr 1
  funext a
  apply Fin.ext
  match a with
  | ⟨0, _⟩ => show win0_3.index t (0 : Fin 1) * 768 + 1 * (y 0).val = (y 0).val; rw [e0]; omega

/-- Window 5's block is its whole vector. -/
theorem block5_apply (c : Dev nD) (t : Fin cfg0.N) (y : S128.Idx) :
    (iblk m c 5 t : Vec Ideal S128 .f32) y = (V m c main_arg6 : S128.Idx → Elt Ideal .f32) y := by
  have e0 := where5 t
  unfold iblk
  rw [View.read_apply]
  show V m c main_arg6 _ = V m c main_arg6 y
  congr 1
  funext a
  apply Fin.ext
  match a with
  | ⟨0, _⟩ => show win0_5.index t (0 : Fin 1) * 128 + 1 * (y 0).val = (y 0).val; rw [e0]; omega

/-- Window 7's block is its whole vector. -/
theorem block7_apply (c : Dev nD) (t : Fin cfg0.N) (y : S2.Idx) :
    (iblk m c 7 t : Vec Ideal S2 .f32) y = (V m c main_arg8 : S2.Idx → Elt Ideal .f32) y := by
  have e0 := where7 t
  unfold iblk
  rw [View.read_apply]
  show V m c main_arg8 _ = V m c main_arg8 y
  congr 1
  funext a
  apply Fin.ext
  match a with
  | ⟨0, _⟩ => show win0_7.index t (0 : Fin 1) * 2 + 1 * (y 0).val = (y 0).val; rw [e0]; omega

/-- Window 9's block is its whole vector. -/
theorem block9_apply (c : Dev nD) (t : Fin cfg0.N) (y : S2.Idx) :
    (iblk m c 9 t : Vec Ideal S2 .f32) y = (V m c main_arg10 : S2.Idx → Elt Ideal .f32) y := by
  have e0 := where9 t
  unfold iblk
  rw [View.read_apply]
  show V m c main_arg10 _ = V m c main_arg10 y
  congr 1
  funext a
  apply Fin.ext
  match a with
  | ⟨0, _⟩ => show win0_9.index t (0 : Fin 1) * 2 + 1 * (y 0).val = (y 0).val; rw [e0]; omega

/-! ## The two arrays the host writes before the call -/

/-- The transposed input weight the host hands to the call: entry (k, j) is W_ih (j, k). -/
theorem inWeightT_apply (c : Dev nD) (k : Fin 2) (j : Fin 768) :
    (V m c main_v0 : S2x768.Idx → EReal) (ix2 k j) = ((m ((c : Thread nD τ).loc main_arg1)) : S768x2.Idx → EReal) (ix2 j k) := by
  have e : (V m c main_v0 : S2x768.Idx → EReal)
      = transpose S2x768 [1, 0] (m ((c : Thread nD τ).loc main_arg1)) transposes_S768x2_S2x768_1_0 := by
    dsimp only [V, hostOps0]; after_results
  rw [e]
  exact transposed_apply _ _ k j

/-- The transposed last weight the host hands to the call: entry (k, c') is W3 (c', k). -/
theorem outWeightT_apply (c : Dev nD) (k : Fin 2) (c' : Fin 2) :
    (V m c main_v1 : S2x2.Idx → EReal) (ix2 k c') = ((m ((c : Thread nD τ).loc main_arg9)) : S2x2.Idx → EReal) (ix2 c' k) := by
  have e : (V m c main_v1 : S2x2.Idx → EReal)
      = transpose S2x2 [1, 0] (m ((c : Thread nD τ).loc main_arg9)) transposes_S2x2_S2x2_1_0 := by
    dsimp only [V, hostOps0]; after_results
  rw [e]
  exact transposed_apply _ _ k c'

/-! ## The body's partial loads, of any buffer contents -/

/-- The load of the first of eight columns of a [64, 1, 1, 8, 2] buffer. -/
theorem ld_firstColumn (X : Vec Ideal S64x1x1x8x2 .f32) (p : Fin 64) (k : Fin 2) :
    View.ld X r0_0 (ix5 p (0 : Fin 1) (0 : Fin 1) (0 : Fin 1) k) = X (ix5 p (0 : Fin 1) (0 : Fin 1) (0 : Fin 8) k) :=
  ld_unit_apply X _ _ _ _ (ix5 p (0 : Fin 1) (0 : Fin 1) (0 : Fin 8) k) (fun a => match a with
    | ⟨0, _⟩ => (Nat.zero_add _).symm
    | ⟨1, _⟩ => rfl
    | ⟨2, _⟩ => rfl
    | ⟨3, _⟩ => rfl
    | ⟨4, _⟩ => (Nat.zero_add _).symm)

/-- The load of row 0 of a [2, 768] buffer. -/
theorem ld_wideRow0 (X : Vec Ideal S2x768 .f32) (j : Fin 768) :
    View.ld X r0_1 (ix2 (0 : Fin 1) j) = X (ix2 (0 : Fin 2) j) :=
  ld_unit_apply X _ _ _ _ (ix2 (0 : Fin 2) j) (fun a => match a with
    | ⟨0, _⟩ => rfl
    | ⟨1, _⟩ => (Nat.zero_add _).symm)

/-- The load of row 1 of a [2, 768] buffer. -/
theorem ld_wideRow1 (X : Vec Ideal S2x768 .f32) (j : Fin 768) :
    View.ld X r0_2 (ix2 (0 : Fin 1) j) = X (ix2 (1 : Fin 2) j) :=
  ld_unit_apply X _ _ _ _ (ix2 (1 : Fin 2) j) (fun a => match a with
    | ⟨0, _⟩ => rfl
    | ⟨1, _⟩ => (Nat.zero_add _).symm)

/-- The load of row 0 of a [2, 2] buffer. -/
theorem ld_smallRow0 (X : Vec Ideal S2x2 .f32) (c' : Fin 2) :
    View.ld X r0_8 (ix2 (0 : Fin 1) c') = X (ix2 (0 : Fin 2) c') :=
  ld_unit_apply X _ _ _ _ (ix2 (0 : Fin 2) c') (fun a => match a with
    | ⟨0, _⟩ => rfl
    | ⟨1, _⟩ => (Nat.zero_add _).symm)

/-- The load of row 1 of a [2, 2] buffer. -/
theorem ld_smallRow1 (X : Vec Ideal S2x2 .f32) (c' : Fin 2) :
    View.ld X r0_9 (ix2 (0 : Fin 1) c') = X (ix2 (1 : Fin 2) c') :=
  ld_unit_apply X _ _ _ _ (ix2 (1 : Fin 2) c') (fun a => match a with
    | ⟨0, _⟩ => rfl
    | ⟨1, _⟩ => (Nat.zero_add _).symm)

/-! ## What the body loads -/

/-- The loaded piece of `flow`: entry (p, 0, 0, 0, k) is flow (p, 63, 32, 32, k). -/
theorem load_flow (c : Dev nD) (t : Fin cfg0.N) (p : Fin 64) (k : Fin 2) :
    View.ld (iblk m c 0 t) r0_0 (ix5 p (0 : Fin 1) (0 : Fin 1) (0 : Fin 1) k)
      = ((m ((c : Thread nD τ).loc main_arg0)) : S64x64x64x64x2.Idx → EReal) (ix5 p (63 : Fin 64) (32 : Fin 64) (32 : Fin 64) k) :=
  (ld_firstColumn (iblk m c 0 t : Vec Ideal S64x1x1x8x2 .f32) p k).trans
    ((block0_apply m c t p k).trans (congrFun (V_main_arg0 m c) _))

/-- The first loaded row of the transposed input weight: entry (0, j) is W_ih (j, 0). -/
theorem load_inWeight0 (c : Dev nD) (t : Fin cfg0.N) (j : Fin 768) :
    View.ld (iblk m c 1 t) r0_1 (ix2 (0 : Fin 1) j) = ((m ((c : Thread nD τ).loc main_arg1)) : S768x2.Idx → EReal) (ix2 j (0 : Fin 2)) :=
  (ld_wideRow0 (iblk m c 1 t : Vec Ideal S2x768 .f32) j).trans
    ((block1_apply m c t _).trans (inWeightT_apply m c 0 j))

/-- The second loaded row of the transposed input weight: entry (0, j) is W_ih (j, 1). -/
theorem load_inWeight1 (c : Dev nD) (t : Fin cfg0.N) (j : Fin 768) :
    View.ld (iblk m c 1 t) r0_2 (ix2 (0 : Fin 1) j) = ((m ((c : Thread nD τ).loc main_arg1)) : S768x2.Idx → EReal) (ix2 j (1 : Fin 2)) :=
  (ld_wideRow1 (iblk m c 1 t : Vec Ideal S2x768 .f32) j).trans
    ((block1_apply m c t _).trans (inWeightT_apply m c 1 j))

/-- The loaded input bias. -/
theorem load_inBias (c : Dev nD) (t : Fin cfg0.N) (j : Fin 768) :
    View.ld (iblk m c 2 t) r0_3 (ix1 j) = ((m ((c : Thread nD τ).loc main_arg2)) : S768.Idx → EReal) (ix1 j) :=
  (ld_unit_apply (iblk m c 2 t) _ _ _ _ (ix1 j) (fun a => match a with
    | ⟨0, _⟩ => (Nat.zero_add _).symm)).trans
    ((block2_apply m c t _).trans (congrFun (V_main_arg2 m c) _))

/-- The loaded hidden bias. -/
theorem load_hidBias (c : Dev nD) (t : Fin cfg0.N) (j : Fin 768) :
    View.ld (iblk m c 3 t) r0_3 (ix1 j) = ((m ((c : Thread nD τ).loc main_arg4)) : S768.Idx → EReal) (ix1 j) :=
  (ld_unit_apply (iblk m c 3 t) _ _ _ _ (ix1 j) (fun a => match a with
    | ⟨0, _⟩ => (Nat.zero_add _).symm)).trans
    ((block3_apply m c t _).trans (congrFun (V_main_arg4 m c) _))

/-- The loaded first-layer weight. -/
theorem load_weight1 (c : Dev nD) (t : Fin cfg0.N) (q : Fin 128) (f : Fin 256) :
    View.ld (iblk m c 4 t) r0_4 (ix2 q f) = ((m ((c : Thread nD τ).loc main_arg5)) : S128x256.Idx → EReal) (ix2 q f) :=
  (ld_unit_apply (iblk m c 4 t) _ _ _ _ (ix2 q f) (fun a => match a with
    | ⟨0, _⟩ => (Nat.zero_add _).symm
    | ⟨1, _⟩ => (Nat.zero_add _).symm)).trans
    ((block4_apply m c t _).trans (congrFun (V_main_arg5 m c) _))

/-- The loaded first-layer bias. -/
theorem load_bias1 (c : Dev nD) (t : Fin cfg0.N) (q : Fin 128) :
    View.ld (iblk m c 5 t) r0_5 (ix1 q) = ((m ((c : Thread nD τ).loc main_arg6)) : S128.Idx → EReal) (ix1 q) :=
  (ld_unit_apply (iblk m c 5 t) _ _ _ _ (ix1 q) (fun a => match a with
    | ⟨0, _⟩ => (Nat.zero_add _).symm)).trans
    ((block5_apply m c t _).trans (congrFun (V_main_arg6 m c) _))

/-- The loaded second-layer weight. -/
theorem load_weight2 (c : Dev nD) (t : Fin cfg0.N) (c' : Fin 2) (q : Fin 128) :
    View.ld (iblk m c 6 t) r0_6 (ix2 c' q) = ((m ((c : Thread nD τ).loc main_arg7)) : S2x128.Idx → EReal) (ix2 c' q) :=
  (ld_unit_apply (iblk m c 6 t) _ _ _ _ (ix2 c' q) (fun a => match a with
    | ⟨0, _⟩ => (Nat.zero_add _).symm
    | ⟨1, _⟩ => (Nat.zero_add _).symm)).trans
    ((block6_apply m c t _).trans (congrFun (V_main_arg7 m c) _))

/-- The loaded second-layer bias. -/
theorem load_bias2 (c : Dev nD) (t : Fin cfg0.N) (c' : Fin 2) :
    View.ld (iblk m c 7 t) r0_7 (ix1 c') = ((m ((c : Thread nD τ).loc main_arg8)) : S2.Idx → EReal) (ix1 c') :=
  (ld_unit_apply (iblk m c 7 t) _ _ _ _ (ix1 c') (fun a => match a with
    | ⟨0, _⟩ => (Nat.zero_add _).symm)).trans
    ((block7_apply m c t _).trans (congrFun (V_main_arg8 m c) _))

/-- The first loaded row of the transposed last weight: entry (0, c') is W3 (c', 0). -/
theorem load_outWeight0 (c : Dev nD) (t : Fin cfg0.N) (c' : Fin 2) :
    View.ld (iblk m c 8 t) r0_8 (ix2 (0 : Fin 1) c') = ((m ((c : Thread nD τ).loc main_arg9)) : S2x2.Idx → EReal) (ix2 c' (0 : Fin 2)) :=
  (ld_smallRow0 (iblk m c 8 t : Vec Ideal S2x2 .f32) c').trans
    ((block8_apply m c t _).trans (outWeightT_apply m c 0 c'))

/-- The second loaded row of the transposed last weight: entry (0, c') is W3 (c', 1). -/
theorem load_outWeight1 (c : Dev nD) (t : Fin cfg0.N) (c' : Fin 2) :
    View.ld (iblk m c 8 t) r0_9 (ix2 (0 : Fin 1) c') = ((m ((c : Thread nD τ).loc main_arg9)) : S2x2.Idx → EReal) (ix2 c' (1 : Fin 2)) :=
  (ld_smallRow1 (iblk m c 8 t : Vec Ideal S2x2 .f32) c').trans
    ((block8_apply m c t _).trans (outWeightT_apply m c 1 c'))

/-- The loaded last bias. -/
theorem load_outBias (c : Dev nD) (t : Fin cfg0.N) (c' : Fin 2) :
    View.ld (iblk m c 9 t) r0_7 (ix1 c') = ((m ((c : Thread nD τ).loc main_arg10)) : S2.Idx → EReal) (ix1 c') :=
  (ld_unit_apply (iblk m c 9 t) _ _ _ _ (ix1 c') (fun a => match a with
    | ⟨0, _⟩ => (Nat.zero_add _).symm)).trans
    ((block9_apply m c t _).trans (congrFun (V_main_arg10 m c) _))

/-! ## The body's value, the block written back, the array after the run -/

/-- `Spec.result` of the argument arrays as launched. -/
abbrev resultOf (c : Dev nD) : S64x2.Idx → EReal :=
  Cert.Spec.result (m ((c : Thread nD τ).loc main_arg0))
    (m ((c : Thread nD τ).loc main_arg1))
    (m ((c : Thread nD τ).loc main_arg2))
    (m ((c : Thread nD τ).loc main_arg4))
    (m ((c : Thread nD τ).loc main_arg5))
    (m ((c : Thread nD τ).loc main_arg6))
    (m ((c : Thread nD τ).loc main_arg7))
    (m ((c : Thread nD τ).loc main_arg8))
    (m ((c : Thread nD τ).loc main_arg9))
    (m ((c : Thread nD τ).loc main_arg10))

/-- THE BODY'S VALUE at the one grid point: the two steps of its arithmetic, of what it loads. -/
theorem payload_eq (c : Dev nD) (t : Fin cfg0.N) :
    k0_pay1 (F := Ideal) (k0_pay2 (F := Ideal) (View.ld (iblk m c 0 t) r0_0) (View.ld (iblk m c 1 t) r0_1) (View.ld (iblk m c 1 t) r0_2) (View.ld (iblk m c 2 t) r0_3) (View.ld (iblk m c 3 t) r0_3)) (View.ld (iblk m c 4 t) r0_4) (View.ld (iblk m c 5 t) r0_5) (View.ld (iblk m c 6 t) r0_6) (View.ld (iblk m c 7 t) r0_7) (View.ld (iblk m c 8 t) r0_8) (View.ld (iblk m c 8 t) r0_9) (View.ld (iblk m c 9 t) r0_7)
      = resultOf m c := by
  funext j
  obtain ⟨p, c', rfl⟩ : ∃ (p : Fin 64) (c' : Fin 2), j = ix2 p c' := ⟨j 0, j 1, eq_ix2 j⟩
  refine (result_apply (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
    (Cert.Spec.hidden (m ((c : Thread nD τ).loc main_arg0)) (m ((c : Thread nD τ).loc main_arg1)) (m ((c : Thread nD τ).loc main_arg2)) (m ((c : Thread nD τ).loc main_arg4)))
    (k0_pay2 (F := Ideal) (View.ld (iblk m c 0 t) r0_0) (View.ld (iblk m c 1 t) r0_1) (View.ld (iblk m c 1 t) r0_2) (View.ld (iblk m c 2 t) r0_3) (View.ld (iblk m c 3 t) r0_3))
    (View.ld (iblk m c 4 t) r0_4) (View.ld (iblk m c 5 t) r0_5) (View.ld (iblk m c 6 t) r0_6) (View.ld (iblk m c 7 t) r0_7) (View.ld (iblk m c 8 t) r0_8) (View.ld (iblk m c 8 t) r0_9) (View.ld (iblk m c 9 t) r0_7)
    (fun p f => state_apply (m ((c : Thread nD τ).loc main_arg0)) (m ((c : Thread nD τ).loc main_arg1)) (m ((c : Thread nD τ).loc main_arg2)) (m ((c : Thread nD τ).loc main_arg4))
      (View.ld (iblk m c 0 t) r0_0) (View.ld (iblk m c 1 t) r0_1) (View.ld (iblk m c 1 t) r0_2) (View.ld (iblk m c 2 t) r0_3) (View.ld (iblk m c 3 t) r0_3)
      (load_flow m c t) (load_inWeight0 m c t) (load_inWeight1 m c t) (load_inBias m c t) (load_hidBias m c t) p f)
    (load_weight1 m c t) (load_bias1 m c t) (load_weight2 m c t) (load_bias2 m c t) (load_outWeight0 m c t)
    (load_outWeight1 m c t) (load_outBias m c t) p c').trans ?_
  rfl

theorem zeros2 : (![0, 0] : Fin 2 → Nat) = fun _ => 0 := funext fun a => by fin_cases a <;> rfl

/-- What the one grid point writes back is the whole result. -/
theorem flushed_eq (c : Dev nD) (t : Fin cfg0.N) :
    (dats m 0 c).flushed 10 t = ((cfg0.win 10).blk t).view.read (Elt Ideal) (resultOf m c) := by
  rw [flushed10]
  unfold out0_10
  rw [View.canon_unit_zero zeros2]
  -- a block at index (0, 0) of the array's own size, read through, is the array
  have whole : ∀ X : Vec Ideal S64x2 .f32, X = resultOf m c →
      (cfg0.win 10).cut (grid0.coords t) X = ((cfg0.win 10).blk t).view.read (Elt Ideal) (resultOf m c) := by
    intro X hX
    subst hX
    obtain ⟨e0, e1⟩ := where10 t
    have hz' : (fun a => win0_10.index t a * main_v2.ty.shape.size a) = fun _ => 0 := funext fun a => by
      match a with
      | ⟨0, _⟩ => show win0_10.index t (0 : Fin 2) * 64 = 0; rw [e0]
      | ⟨1, _⟩ => show win0_10.index t (1 : Fin 2) * 2 = 0; rw [e1]
    exact (Memref.read_access_unit_zero (Elt Ideal) main_v2 hz' (fun a => by rw [congrFun hz' a]; simp) (resultOf m c)).symm
  exact whole _ (payload_eq m c t)

/-- So the result array ends holding it: the one block covers the array. -/
theorem final (c : Dev nD) : (dats m 0 c).arrAt 10 cfg0.N = resultOf m c :=
  (dats m 0 c).arrAt_eq_of_cover 10 (resultOf m c) (fun t _ => flushed_eq m c t) fun i =>
    ⟨t0_0, flush0_10 t0_0, by
      show i ∈ ((View.whole main_v2).slice (win0_10.rect t0_0)).set
      rw [View.set_slice_whole, Rect.mem_set_unit]
      intro a
      have h0 : (i 0 : Nat) < 64 := (i 0).isLt
      have h1 : (i 1 : Nat) < 2 := (i 1).isLt
      match a with
      | ⟨0, _⟩ =>
        show win0_10.index t0_0 0 * win0_10.size 0 ≤ (i 0 : Nat) ∧ (i 0 : Nat) < win0_10.index t0_0 0 * win0_10.size 0 + win0_10.xsize (grid0.coords t0_0) 0
        rw [show win0_10.index t0_0 0 * win0_10.size 0 = 0 from by decide +kernel, show win0_10.xsize (grid0.coords t0_0) 0 = 64 from by decide +kernel]; omega
      | ⟨1, _⟩ =>
        show win0_10.index t0_0 1 * win0_10.size 1 ≤ (i 1 : Nat) ∧ (i 1 : Nat) < win0_10.index t0_0 1 * win0_10.size 1 + win0_10.xsize (grid0.coords t0_0) 1
        rw [show win0_10.index t0_0 1 * win0_10.size 1 = 0 from by decide +kernel, show win0_10.xsize (grid0.coords t0_0) 1 = 2 from by decide +kernel]; omega⟩

/-- THE KERNEL'S RUN, read: the result array at `Spec.result` of the arguments, the arguments unchanged. -/
theorem run : θ_run defs (onTc (τ := τ) (main (F := Ideal))) ⟨m, fun _ => 0, ρ⟩ fun r => ∀ c : Dev nD,
      r.2.mem ((c : Thread nD τ).loc main_v2) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun _ h c => ⟨(h c).1.trans (final m c), (h c).2⟩) (run_blocks m ρ)

end Cert.KernelIdeal.Hand

end
-- ==== Proof.LibBroadcastInDim2.lean ====
/-
  The host's `broadcast_in_dim` between ranks 1 and 2, read at an index given by its coordinates, for any sizes:
  a vector `[a]` as a column `[a, 1]` (dims = [0]) and as a row `[1, b]` (dims = [1]); a column `[a, 1]` along the second axis
  to `[a, b]` and a row `[1, b]` along the first axis to `[a, b]` (dims = [0, 1]).  Each is one instance of the library's
  read-at-an-index lemma for the operation, the coordinate arithmetic discharged once for all sizes.
-/
import Idealize.ShloMosaic.Lib.ValueIdx
import Idealize.ShloMosaic.Lib.Pipeline.Value

namespace Idealize.ShloMosaic.BroadcastInDim2

open Idealize.ShloMosaic Idealize.ShloMosaic.ValueIdx

variable {α : Type}

/-- A vector as a column: entry (p, 0) is the vector's entry p. -/
theorem vecToCol_apply {a : Nat} (v : (⟨1, ![a]⟩ : Shape).Idx → α)
    (h : (⟨1, ![a]⟩ : Shape).BroadcastsInDim ⟨2, ![a, 1]⟩ (![0] : Fin 1 → Fin 2)) (p : Fin a) (z : Fin 1) :
    broadcastInDim (⟨2, ![a, 1]⟩ : Shape) (![0] : Fin 1 → Fin 2) h v (ix2 p z) = v (ix1 p) :=
  broadcastInDim_apply (![0] : Fin 1 → Fin 2) h v (ix2 p z) (ix1 p) (fun d => match d with
    | ⟨0, _⟩ => by
        show p.val = if a = 1 then 0 else p.val
        by_cases ha : a = 1
        · rw [if_pos ha]; have := p.isLt; omega
        · rw [if_neg ha])

/-- A vector as a row: entry (0, q) is the vector's entry q. -/
theorem vecToRow_apply {b : Nat} (v : (⟨1, ![b]⟩ : Shape).Idx → α)
    (h : (⟨1, ![b]⟩ : Shape).BroadcastsInDim ⟨2, ![1, b]⟩ (![1] : Fin 1 → Fin 2)) (z : Fin 1) (q : Fin b) :
    broadcastInDim (⟨2, ![1, b]⟩ : Shape) (![1] : Fin 1 → Fin 2) h v (ix2 z q) = v (ix1 q) :=
  broadcastInDim_apply (![1] : Fin 1 → Fin 2) h v (ix2 z q) (ix1 q) (fun d => match d with
    | ⟨0, _⟩ => by
        show q.val = if b = 1 then 0 else q.val
        by_cases hb : b = 1
        · rw [if_pos hb]; have := q.isLt; omega
        · rw [if_neg hb])

/-- A column along the second axis: entry (p, q) is the column's entry (p, 0). -/
theorem colToMat_apply {a b : Nat} (v : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim (⟨2, ![a, b]⟩ : Shape) (![0, 1] : Fin 2 → Fin 2) h v (ix2 p q) = v (ix2 p (0 : Fin 1)) :=
  broadcastInDim_apply (![0, 1] : Fin 2 → Fin 2) h v (ix2 p q) (ix2 p (0 : Fin 1)) (fun d => match d with
    | ⟨0, _⟩ => by
        show p.val = if a = 1 then 0 else p.val
        by_cases ha : a = 1
        · rw [if_pos ha]; have := p.isLt; omega
        · rw [if_neg ha]
    | ⟨1, _⟩ => by show 0 = if (1 : Nat) = 1 then 0 else q.val; rw [if_pos rfl])

/-- A row along the first axis: entry (p, q) is the row's entry (0, q). -/
theorem rowToMat_apply {a b : Nat} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim (⟨2, ![a, b]⟩ : Shape) (![0, 1] : Fin 2 → Fin 2) h v (ix2 p q) = v (ix2 (0 : Fin 1) q) :=
  broadcastInDim_apply (![0, 1] : Fin 2 → Fin 2) h v (ix2 p q) (ix2 (0 : Fin 1) q) (fun d => match d with
    | ⟨0, _⟩ => by show 0 = if (1 : Nat) = 1 then 0 else p.val; rw [if_pos rfl]
    | ⟨1, _⟩ => by
        show q.val = if b = 1 then 0 else q.val
        by_cases hb : b = 1
        · rw [if_pos hb]; have := q.isLt; omega
        · rw [if_neg hb])

end Idealize.ShloMosaic.BroadcastInDim2
-- ==== Proof.LibLogisticTanh.lean ====
/-
  The logistic function through the hyperbolic tangent, on the extended reals:

      1/2 · (tanh (1/2 · x) + 1) = 1 / (1 + e^(-x))        for EVERY extended real x.

  On a real x, with y = x/2: (tanh y + 1)/2 = e^y / (e^y + e^(-y)) = 1 / (1 + e^(-2y)). At +∞ both sides are 1
  (tanh ⊤ = 1; e^(-⊤) = 0), at -∞ both are 0 (tanh ⊥ = -1; 1 / (1 + ⊤) = 0). So a program that spells the logistic
  function with one tanh and a program that spells it with an exponential and a quotient agree with no finiteness
  assumption on the argument. Stated over the reals, over the extended reals, and over the f32 patterns of 0.5 and 1.0.
-/
import Idealize.ShloMosaic.PureOps.Ideal

noncomputable section

namespace Cert.LibLogisticTanh

open Idealize.ShloMosaic

/-- The f32 pattern of 0.5 denotes 1/2. -/
theorem ofBits_half : Ideal.ofBits .f32 0x3F000000#32 = ((1 / 2 : ℝ) : EReal) := by
  simp [Ideal.ofBits, Ideal.ieee, -EReal.coe_mul]; norm_num

/-- The f32 pattern of 1.0 denotes 1. -/
theorem ofBits_one : Ideal.ofBits .f32 0x3F800000#32 = (1 : EReal) := by
  rw [← EReal.coe_one]; simp [Ideal.ofBits, Ideal.ieee, -EReal.coe_mul, -EReal.coe_one]; norm_num

/-- (tanh y + 1) / 2 = 1 / (1 + e^(-2y)) on the reals: multiply numerator and denominator of e^y / (e^y + e^(-y)) by e^(-y). -/
theorem half_tanh_add_one (y : ℝ) : 1 / 2 * (Real.tanh y + 1) = (1 + Real.exp (-(2 * y)))⁻¹ := by
  have hpos : 0 < Real.exp y := Real.exp_pos y
  have hneg : Real.exp (-y) = (Real.exp y)⁻¹ := Real.exp_neg y
  have h2 : Real.exp (-(2 * y)) = (Real.exp y)⁻¹ * (Real.exp y)⁻¹ := by
    rw [← hneg, ← Real.exp_add]; congr 1; ring
  rw [Real.tanh_eq_sinh_div_cosh, Real.sinh_eq, Real.cosh_eq, hneg, h2]
  have hne : Real.exp y ≠ 0 := hpos.ne'
  have hsum : Real.exp y * Real.exp y + 1 ≠ 0 := by positivity
  field_simp
  ring

/-- 1/2 · (tanh (1/2 · x) + 1) is the logistic function of x, at every extended real. -/
theorem half_tanh_half_eq_logistic (x : EReal) :
    ((1 / 2 : ℝ) : EReal) * (Ideal.tanh (((1 / 2 : ℝ) : EReal) * x) + 1) = Ideal.logistic x := by
  induction x using EReal.rec with
  | bot =>
    rw [EReal.coe_mul_bot_of_pos (by norm_num), Ideal.tanh_bot, Ideal.logistic_bot]
    rw [show ((-1 : EReal)) = ((-1 : ℝ) : EReal) from by rw [EReal.coe_neg, EReal.coe_one], ← EReal.coe_one,
      ← EReal.coe_add, ← EReal.coe_mul]
    norm_num
  | top =>
    rw [EReal.coe_mul_top_of_pos (by norm_num), Ideal.tanh_top, Ideal.logistic_top]
    rw [← EReal.coe_one, ← EReal.coe_add, ← EReal.coe_mul]
    norm_num
  | coe r =>
    rw [← EReal.coe_mul, Ideal.tanh_coe, ← EReal.coe_one, ← EReal.coe_add, ← EReal.coe_mul, Ideal.logistic_coe,
      half_tanh_add_one]
    congr 4; ring

/-- The same with 0.5 and 1.0 as f32 patterns: the tanh spelling of a float program. -/
theorem tanh_spelling_f32 (x : EReal) :
    Ideal.ofBits .f32 0x3F000000#32 * (Ideal.tanh (Ideal.ofBits .f32 0x3F000000#32 * x) + Ideal.ofBits .f32 0x3F800000#32)
      = Ideal.logistic x := by
  rw [ofBits_half, ofBits_one, half_tanh_half_eq_logistic]

/-- The exponential spelling of a float program, 1.0 / (1.0 + e^(-x)) with 1.0 as its f32 pattern, is the logistic
    function by definition. -/
theorem exp_spelling_f32 (x : EReal) :
    Ideal.div (Ideal.ofBits .f32 0x3F800000#32) (Ideal.ofBits .f32 0x3F800000#32 + Ideal.exp (-x)) = Ideal.logistic x := by
  rw [ofBits_one]; rfl

end Cert.LibLogisticTanh

end
-- ==== Proof.RefIsSpec.lean ====
/-
  The reference program computes `Spec.result`.

  Its run ends with the result at the composed term of its 63 host operations; the generated reading module names each
  operation's value as a stage.  Here each stage that matters is read at an index given by its coordinates: the slice
  of `flow` and its reshape (row p's two numbers), the transposes, the contractions as finite sums over the contracted
  axis (a contraction over two terms written out as a sum of two products), the broadcasts of the biases, the three
  runs of 256 columns of the gates, and the host's logistic function spelt 1 / (1 + e^(-x)), which is the logistic
  function on every extended real.  Stage by stage the reference is the specification.
-/
import proofs.«137453_j73950746902692_2_alg».proof.Proof.Gen.ReferenceIdeal.Read
import proofs.«137453_j73950746902692_2_alg».proof.Proof.Spec
import proofs.«137453_j73950746902692_2_alg».proof.Proof.LibReadAt
import proofs.«137453_j73950746902692_2_alg».proof.Proof.LibPlainDot
import proofs.«137453_j73950746902692_2_alg».proof.Proof.LibHostMatrix
import proofs.«137453_j73950746902692_2_alg».proof.Proof.LibBroadcastInDim2
import proofs.«137453_j73950746902692_2_alg».proof.Proof.LibLogisticTanh
import Idealize.ShloMosaic.PureOps.Ideal.Laws

noncomputable section

open scoped BigOperators

namespace Cert.ReferenceIdeal.Hand

open Cert.ReferenceIdeal Cert.ReferenceIdeal.Gen Cert.ReferenceIdeal.Read Idealize.ShloMosaic Idealize.ShloMosaic.ValueIdx
open Cert.Lib.ReadAt Cert.Lib.HostMatrix Idealize.ShloMosaic.BroadcastInDim2

variable (x0 : (⟨S64x64x64x64x2, .f32⟩ : BufTy).Contents (Elt Ideal)) (x1 : (⟨S768x2, .f32⟩ : BufTy).Contents (Elt Ideal))
  (x2 x4 : (⟨S768, .f32⟩ : BufTy).Contents (Elt Ideal)) (x5 : (⟨S128x256, .f32⟩ : BufTy).Contents (Elt Ideal))
  (x6 : (⟨S128, .f32⟩ : BufTy).Contents (Elt Ideal)) (x7 : (⟨S2x128, .f32⟩ : BufTy).Contents (Elt Ideal))
  (x8 : (⟨S2, .f32⟩ : BufTy).Contents (Elt Ideal)) (x9 : (⟨S2x2, .f32⟩ : BufTy).Contents (Elt Ideal))
  (x10 : (⟨S2, .f32⟩ : BufTy).Contents (Elt Ideal))

/-! ## Row p's two numbers, and the transposed weights -/

/-- The slice of `flow` reshaped to [64, 2]: entry (p, k) is flow (p, 63, 32, 32, k). -/
theorem picked_apply (p : Fin 64) (k : Fin 2) :
    val_main_v1 (F := Ideal) x0 (ix2 p k) = x0 (ix5 p (63 : Fin 64) (32 : Fin 64) (32 : Fin 64) k) := by
  refine (matOfUnits_apply (val_main_v0 (F := Ideal) x0) shapeCasts_S64x1x1x1x2_S64x2 p k).trans ?_
  rw [val_main_v0_apply]
  refine congrArg x0 (funext fun a => Fin.ext ?_)
  match a with
  | ⟨0, _⟩ => rfl
  | ⟨1, _⟩ => rfl
  | ⟨2, _⟩ => rfl
  | ⟨3, _⟩ => rfl
  | ⟨4, _⟩ => rfl

/-- The input weight transposed: entry (k, j) is W_ih (j, k). -/
theorem inWeightT_apply (k : Fin 2) (j : Fin 768) : val_main_v2 (F := Ideal) x1 (ix2 k j) = x1 (ix2 j k) :=
  transposed_apply x1 _ k j

/-- The first layer's weight transposed: entry (f, q) is W1 (q, f). -/
theorem weight1T_apply (f : Fin 256) (q : Fin 128) : val_main_v39 (F := Ideal) x5 (ix2 f q) = x5 (ix2 q f) :=
  transposed_apply x5 _ f q

/-- The second layer's weight transposed: entry (q, c) is W2 (c, q). -/
theorem weight2T_apply (q : Fin 128) (c : Fin 2) : val_main_v45 (F := Ideal) x7 (ix2 q c) = x7 (ix2 c q) :=
  transposed_apply x7 _ q c

/-- The last layer's weight transposed: entry (k, c) is W3 (c, k). -/
theorem weight3T_apply (k : Fin 2) (c : Fin 2) : val_main_v51 (F := Ideal) x9 (ix2 k c) = x9 (ix2 c k) :=
  transposed_apply x9 _ k c

/-! ## The gates -/

/-- The contraction over row p's two numbers plus the input bias is `Spec.gate`. -/
theorem gate_apply (p : Fin 64) (j : Fin 768) :
    val_main_v6 (F := Ideal) x0 x1 x2 (ix2 p j) = Cert.Spec.gate x0 x1 x2 p j := by
  have e3 : val_main_v3 (F := Ideal) x0 x1 (ix2 p j)
      = ∑ k : Fin 2, val_main_v1 (F := Ideal) x0 (ix2 p k) * val_main_v2 (F := Ideal) x1 (ix2 k j) :=
    Cert.Bridge.dotGeneral_plain dot_S64x2_S2x768_S64x768_1_0_0_1_n_n rfl rfl rfl rfl rfl rfl none .single _ _ p j
  have e5 : val_main_v5 (F := Ideal) x2 (ix2 p j) = x2 (ix1 j) :=
    (rowToMat_apply (val_main_v4 (F := Ideal) x2) bcast_S1x768_S64x768_0_1 p j).trans
      (vecToRow_apply x2 bcast_S768_S1x768_1 (0 : Fin 1) j)
  show val_main_v3 (F := Ideal) x0 x1 (ix2 p j) + val_main_v5 (F := Ideal) x2 (ix2 p j) = _
  rw [e3, e5, Fin.sum_univ_two, picked_apply, picked_apply, inWeightT_apply, inWeightT_apply]
  rfl

/-- Columns 0 … 255 of the gates. -/
theorem gateR_apply (p : Fin 64) (f : Fin 256) :
    val_main_v7 (F := Ideal) x0 x1 x2 (ix2 p f) = Cert.Spec.gate x0 x1 x2 p (seg 0 f (by decide)) :=
  (cols_apply (val_main_v6 (F := Ideal) x0 x1 x2) slices_S64x768_S64x256_0_0 p f).trans (gate_apply x0 x1 x2 p _)

/-- Columns 256 … 511 of the gates. -/
theorem gateZ_apply (p : Fin 64) (f : Fin 256) :
    val_main_v8 (F := Ideal) x0 x1 x2 (ix2 p f) = Cert.Spec.gate x0 x1 x2 p (seg 256 f (by decide)) :=
  (cols_apply (val_main_v6 (F := Ideal) x0 x1 x2) slices_S64x768_S64x256_0_256 p f).trans (gate_apply x0 x1 x2 p _)

/-- Columns 512 … 767 of the gates. -/
theorem gateN_apply (p : Fin 64) (f : Fin 256) :
    val_main_v9 (F := Ideal) x0 x1 x2 (ix2 p f) = Cert.Spec.gate x0 x1 x2 p (seg 512 f (by decide)) :=
  (cols_apply (val_main_v6 (F := Ideal) x0 x1 x2) slices_S64x768_S64x256_0_512 p f).trans (gate_apply x0 x1 x2 p _)

/-- The first run of the hidden bias, broadcast over the rows. -/
theorem biasR_apply (p : Fin 64) (f : Fin 256) :
    val_main_v14 (F := Ideal) x4 (ix2 p f) = x4 (ix1 (seg 0 f (by decide))) :=
  (rowToMat_apply (val_main_v13 (F := Ideal) x4) bcast_S1x256_S64x256_0_1 p f).trans
    ((vecToRow_apply (val_main_v10 (F := Ideal) x4) bcast_S256_S1x256_1 (0 : Fin 1) f).trans
      (run_apply x4 slices_S768_S256_0 f))

/-- The second run of the hidden bias, broadcast over the rows. -/
theorem biasZ_apply (p : Fin 64) (f : Fin 256) :
    val_main_v23 (F := Ideal) x4 (ix2 p f) = x4 (ix1 (seg 256 f (by decide))) :=
  (rowToMat_apply (val_main_v22 (F := Ideal) x4) bcast_S1x256_S64x256_0_1 p f).trans
    ((vecToRow_apply (val_main_v11 (F := Ideal) x4) bcast_S256_S1x256_1 (0 : Fin 1) f).trans
      (run_apply x4 slices_S768_S256_256 f))

/-- The third run of the hidden bias, broadcast over the rows. -/
theorem biasN_apply (p : Fin 64) (f : Fin 256) :
    val_main_v32 (F := Ideal) x4 (ix2 p f) = x4 (ix1 (seg 512 f (by decide))) :=
  (rowToMat_apply (val_main_v31 (F := Ideal) x4) bcast_S1x256_S64x256_0_1 p f).trans
    ((vecToRow_apply (val_main_v12 (F := Ideal) x4) bcast_S256_S1x256_1 (0 : Fin 1) f).trans
      (run_apply x4 slices_S768_S256_512 f))

/-! ## The cell's new state -/

/-- THE CELL'S NEW STATE in the reference: the host spells each logistic function 1 / (1 + e^(-x)). -/
theorem state_apply (p : Fin 64) (f : Fin 256) :
    val_main_v38 (F := Ideal) x0 x1 x2 x4 (ix2 p f) = Cert.Spec.hidden x0 x1 x2 x4 p f := by
  have o18 : val_main_v18 (F := Ideal) (ix2 p f) = Cert.Spec.one := splat_apply bcast_S_S64x256 _ _
  have o20 : val_main_v20 (F := Ideal) (ix2 p f) = Cert.Spec.one := splat_apply bcast_S_S64x256 _ _
  have o27 : val_main_v27 (F := Ideal) (ix2 p f) = Cert.Spec.one := splat_apply bcast_S_S64x256 _ _
  have o29 : val_main_v29 (F := Ideal) (ix2 p f) = Cert.Spec.one := splat_apply bcast_S_S64x256 _ _
  have o36 : val_main_v36 (F := Ideal) (ix2 p f) = Cert.Spec.one := splat_apply bcast_S_S64x256 _ _
  show (val_main_v36 (F := Ideal) (ix2 p f)
        - Ideal.div (val_main_v29 (F := Ideal) (ix2 p f))
            (val_main_v27 (F := Ideal) (ix2 p f)
              + Ideal.exp (-(val_main_v8 (F := Ideal) x0 x1 x2 (ix2 p f) + val_main_v23 (F := Ideal) x4 (ix2 p f)))))
      * Ideal.tanh (val_main_v9 (F := Ideal) x0 x1 x2 (ix2 p f)
          + Ideal.div (val_main_v20 (F := Ideal) (ix2 p f))
              (val_main_v18 (F := Ideal) (ix2 p f)
                + Ideal.exp (-(val_main_v7 (F := Ideal) x0 x1 x2 (ix2 p f) + val_main_v14 (F := Ideal) x4 (ix2 p f))))
            * val_main_v32 (F := Ideal) x4 (ix2 p f)) = _
  rw [o18, o20, o27, o29, o36, gateR_apply, gateZ_apply, gateN_apply, biasR_apply, biasZ_apply, biasN_apply]
  unfold Cert.Spec.one
  rw [Cert.LibLogisticTanh.exp_spelling_f32, Cert.LibLogisticTanh.exp_spelling_f32]
  rfl

/-! ## The dense layers -/

/-- The first dense layer with the rectifier `relu` (a maximum with the zero constant). -/
theorem act1_apply (p : Fin 64) (q : Fin 128) :
    val_main_v44 (F := Ideal) x0 x1 x2 x4 x5 x6 (ix2 p q)
      = Cert.Spec.act1 x5 x6 (Cert.Spec.hidden x0 x1 x2 x4) p q := by
  have e40 : val_main_v40 (F := Ideal) x0 x1 x2 x4 x5 (ix2 p q)
      = ∑ k : Fin 256, val_main_v38 (F := Ideal) x0 x1 x2 x4 (ix2 p k) * val_main_v39 (F := Ideal) x5 (ix2 k q) :=
    Cert.Bridge.dotGeneral_plain dot_S64x256_S256x128_S64x128_1_0_0_1_n_n rfl rfl rfl rfl rfl rfl none .single _ _ p q
  have e42 : val_main_v42 (F := Ideal) x6 (ix2 p q) = x6 (ix1 q) :=
    (rowToMat_apply (val_main_v41 (F := Ideal) x6) bcast_S1x128_S64x128_0_1 p q).trans
      (vecToRow_apply x6 bcast_S128_S1x128_1 (0 : Fin 1) q)
  have ez : val_main_call0_v0 (F := Ideal) (ix2 p q) = Cert.Spec.zero := splat_apply bcast_S_S64x128 _ _
  show max (val_main_v40 (F := Ideal) x0 x1 x2 x4 x5 (ix2 p q) + val_main_v42 (F := Ideal) x6 (ix2 p q))
      (val_main_call0_v0 (F := Ideal) (ix2 p q)) = _
  rw [e40, e42, ez]
  simp only [state_apply, weight1T_apply]
  rfl

/-- The second dense layer with its hyperbolic tangent. -/
theorem act2_apply (p : Fin 64) (c : Fin 2) :
    val_main_v50 (F := Ideal) x0 x1 x2 x4 x5 x6 x7 x8 (ix2 p c)
      = Cert.Spec.act2 x5 x6 x7 x8 (Cert.Spec.hidden x0 x1 x2 x4) p c := by
  have e46 : val_main_v46 (F := Ideal) x0 x1 x2 x4 x5 x6 x7 (ix2 p c)
      = ∑ k : Fin 128, val_main_v44 (F := Ideal) x0 x1 x2 x4 x5 x6 (ix2 p k) * val_main_v45 (F := Ideal) x7 (ix2 k c) :=
    Cert.Bridge.dotGeneral_plain dot_S64x128_S128x2_S64x2_1_0_0_1_n_n rfl rfl rfl rfl rfl rfl none .single _ _ p c
  have e48 : val_main_v48 (F := Ideal) x8 (ix2 p c) = x8 (ix1 c) :=
    (rowToMat_apply (val_main_v47 (F := Ideal) x8) bcast_S1x2_S64x2_0_1 p c).trans
      (vecToRow_apply x8 bcast_S2_S1x2_1 (0 : Fin 1) c)
  show Ideal.tanh (val_main_v46 (F := Ideal) x0 x1 x2 x4 x5 x6 x7 (ix2 p c) + val_main_v48 (F := Ideal) x8 (ix2 p c)) = _
  rw [e46, e48]
  simp only [act1_apply, weight2T_apply]
  rfl

/-- The last dense layer: a contraction over two terms, written out. -/
theorem out_apply (p : Fin 64) (c : Fin 2) :
    val_main_v55 (F := Ideal) x0 x1 x2 x4 x5 x6 x7 x8 x9 x10 (ix2 p c)
      = Cert.Spec.out x5 x6 x7 x8 x9 x10 (Cert.Spec.hidden x0 x1 x2 x4) p c := by
  have e52 : val_main_v52 (F := Ideal) x0 x1 x2 x4 x5 x6 x7 x8 x9 (ix2 p c)
      = ∑ k : Fin 2, val_main_v50 (F := Ideal) x0 x1 x2 x4 x5 x6 x7 x8 (ix2 p k) * val_main_v51 (F := Ideal) x9 (ix2 k c) :=
    Cert.Bridge.dotGeneral_plain dot_S64x2_S2x2_S64x2_1_0_0_1_n_n rfl rfl rfl rfl rfl rfl none .single _ _ p c
  have e54 : val_main_v54 (F := Ideal) x10 (ix2 p c) = x10 (ix1 c) :=
    (rowToMat_apply (val_main_v53 (F := Ideal) x10) bcast_S1x2_S64x2_0_1 p c).trans
      (vecToRow_apply x10 bcast_S2_S1x2_1 (0 : Fin 1) c)
  show val_main_v52 (F := Ideal) x0 x1 x2 x4 x5 x6 x7 x8 x9 (ix2 p c) + val_main_v54 (F := Ideal) x10 (ix2 p c) = _
  rw [e52, e54, Fin.sum_univ_two, act2_apply, act2_apply, weight3T_apply, weight3T_apply]
  rfl

/-- THE REFERENCE IS THE SPECIFICATION, as whole arrays. -/
theorem result_eq :
    val_main_v55 (F := Ideal) x0 x1 x2 x4 x5 x6 x7 x8 x9 x10 = Cert.Spec.result x0 x1 x2 x4 x5 x6 x7 x8 x9 x10 := by
  funext j
  obtain ⟨p, c, rfl⟩ : ∃ (p : Fin 64) (c : Fin 2), j = ix2 p c := ⟨j 0, j 1, eq_ix2 j⟩
  rw [out_apply, Cert.Spec.result_apply]

end Cert.ReferenceIdeal.Hand

end
-- ==== Proof.lean ====
/-
  The certificate of a kernel that runs one step of a gated recurrent cell from the zero state on the two numbers
  flow(p, 63, 32, 32, ·) of each of 64 rows and feeds the new state through three dense layers, against the same
  computation written with jnp.

  The two programs differ only in arrangement.  The kernel fetches an eight-column block of `flow` around the column
  it needs and loads its first column, where the reference slices the array; it forms the contractions over two terms
  (the input-to-hidden map and the last layer) as sums of two products, column by column of weights the host transposed
  beforehand, where the reference contracts; it transposes the two larger weights inside the body and multiplies into
  a zero accumulator in a narrower float format, where the reference transposes on the host and contracts; its logistic
  function is one operation, where the reference writes 1 / (1 + e^(-x)).  On the extended reals a change of float
  format is the identity, a contraction is a finite sum, a sum over two terms is the sum of the two, and
  1 / (1 + e^(-x)) is the logistic function at every x, infinite ones included: both programs compute `Spec.result`
  (Proof/Spec.lean), and no step uses that the inputs are finite.

  Proof/KernelPayload.lean reads the kernel body's arithmetic entry by entry, Proof/KernelValue.lean what the body loads
  and what the run leaves in the result array, Proof/RefIsSpec.lean the reference stage by stage.  The three frames are
  the generated ones (the reference's is its generated run with the result dropped); the kernel's idealization rewrote
  nothing, so `preserves` is trivial.
-/
import proofs.«137453_j73950746902692_2_alg».proof.Defs
import proofs.«137453_j73950746902692_2_alg».proof.Proof.Gen.Kernel
import proofs.«137453_j73950746902692_2_alg».proof.Proof.Gen.Kernel.Skeleton
import proofs.«137453_j73950746902692_2_alg».proof.Proof.Gen.Kernel.Launch
import proofs.«137453_j73950746902692_2_alg».proof.Proof.Gen.Kernel.Points
import proofs.«137453_j73950746902692_2_alg».proof.Proof.Gen.Kernel.Frame
import proofs.«137453_j73950746902692_2_alg».proof.Proof.Gen.KernelIdeal
import proofs.«137453_j73950746902692_2_alg».proof.Proof.Gen.KernelIdeal.Skeleton
import proofs.«137453_j73950746902692_2_alg».proof.Proof.Gen.KernelIdeal.Launch
import proofs.«137453_j73950746902692_2_alg».proof.Proof.Gen.KernelIdeal.Points
import proofs.«137453_j73950746902692_2_alg».proof.Proof.Gen.KernelIdeal.Frame
import proofs.«137453_j73950746902692_2_alg».proof.Proof.Gen.ReferenceIdeal
import proofs.«137453_j73950746902692_2_alg».proof.Proof.Gen.KernelIdeal.Value
import proofs.«137453_j73950746902692_2_alg».proof.Proof.Gen.ReferenceIdeal.Run
import proofs.«137453_j73950746902692_2_alg».proof.Proof.Gen.ReferenceIdeal.Read
import proofs.«137453_j73950746902692_2_alg».proof.Proof.Gen.Pre_finite_inputs
import proofs.«137453_j73950746902692_2_alg».proof.Proof.KernelValue
import proofs.«137453_j73950746902692_2_alg».proof.Proof.RefIsSpec
import Idealize.ShloMosaic.Adequacy
import Idealize.ShloMosaic.Init

noncomputable section

namespace Cert.Proof

open Idealize.ShloMosaic Idealize.SL.Sem Cert.Kernel

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the result array at `Spec.result` of them. -/
theorem algebraic : Cert.algebraic_KernelIdeal_ReferenceIdeal := by
  intro m ρ m' ρ' _ hagree
  refine ⟨fun c => Cert.KernelIdeal.Hand.resultOf m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v55_eq, Cert.ReferenceIdeal.Hand.result_eq, a0, a1, a2, a4, a5, a6, a7, a8, a9, a10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
